-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x320000 : Shape := ⟨2, ![2, 320000]⟩
abbrev S200x256 : Shape := ⟨2, ![200, 256]⟩
abbrev S200 : Shape := ⟨1, ![200]⟩
abbrev S100x200 : Shape := ⟨2, ![100, 200]⟩
abbrev S100 : Shape := ⟨1, ![100]⟩
abbrev S2x100 : Shape := ⟨2, ![2, 100]⟩
abbrev S2 : Shape := ⟨1, ![2]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S200x256 : S_.BroadcastsInDim S200x256 (![] : Fin 0 → Fin S200x256.rank)
  reducesTo_S200x256_S_d0_1 : S200x256.ReducesTo [0, 1] S_
  bcast_S_S200 : S_.BroadcastsInDim S200 (![] : Fin 0 → Fin S200.rank)
  reducesTo_S200_S_d0 : S200.ReducesTo [0] S_
  bcast_S_S100x200 : S_.BroadcastsInDim S100x200 (![] : Fin 0 → Fin S100x200.rank)
  reducesTo_S100x200_S_d0_1 : S100x200.ReducesTo [0, 1] S_
  bcast_S_S100 : S_.BroadcastsInDim S100 (![] : Fin 0 → Fin S100.rank)
  reducesTo_S100_S_d0 : S100.ReducesTo [0] S_
  bcast_S_S2x100 : S_.BroadcastsInDim S2x100 (![] : Fin 0 → Fin S2x100.rank)
  reducesTo_S2x100_S_d0_1 : S2x100.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2x100 .f32) (main_arg9 : FVec F S2 .f32) (main_arg10 : FVec F S2x100 .f32) (main_v33 : IVec S_ 1) : IVec S_ 1 :=
  let main_v34 : FVec F S2x100 .f32 := Host.absf main_arg8
  let main_cst_12 : FVec F S_ .f32 := constant S_ .f32 0x7F800000#32
  let main_v35 : FVec F S2x100 .f32 := broadcastInDim S2x100 ![] bcast_S_S2x100 main_cst_12
  let main_v36 : IVec S2x100 1 := cmpf .olt main_v34 main_v35
  let main_c_13 : IVec S_ 1 := constantI S_ 1 1#1
  let main_v37 : IVec S_ 1 := (fun x v => Host.reduce IntOp.andi x v reducesTo_S2x100_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S2x100 .f32 := Host.absf main_arg10
  let main_cst_16 : FVec F S_ .f32 := constant S_ .f32 0x7F800000#32
  let main_v45 : FVec F S2x100 .f32 := broadcastInDim S2x100 ![] bcast_S_S2x100 main_cst_16
  let main_v46 : IVec S2x100 1 := cmpf .olt main_v44 main_v45
  let main_c_17 : IVec S_ 1 := constantI S_ 1 1#1
  let main_v47 : IVec S_ 1 := (fun x v => Host.reduce IntOp.andi x v reducesTo_S2x100_S_d0_1 h_S_) main_v46 main_c_17
  let main_v48 : IVec S_ 1 := andi main_v43 main_v47
  main_v48

def fn_part1 {F : FTy → Type} [FloatOps F] (main_arg5 : FVec F S100x200 .f32) (main_arg6 : FVec F S100 .f32) (main_arg7 : FVec F S100x200 .f32) (main_arg8 : FVec F S2x100 .f32) (main_arg9 : FVec F S2 .f32) (main_arg10 : FVec F S2x100 .f32) (main_v13 : IVec S_ 1) (main_v16 : IVec S200x256 1) : IVec S_ 1 :=
  let main_c_5 : IVec S_ 1 := constantI S_ 1 1#1
  let main_v17 : IVec S_ 1 := (fun x v => Host.reduce IntOp.andi x v reducesTo_S200x256_S_d0_1 h_S_) main_v16 main_c_5
  let main_v18 : IVec S_ 1 := andi main_v13 main_v17
  let main_v19 : FVec F S100x200 .f32 := Host.absf main_arg5
  let main_cst_6 : FVec F S_ .f32 := constant S_ .f32 0x7F800000#32
  let main_v20 : FVec F S100x200 .f32 := broadcastInDim S100x200 ![] bcast_S_S100x200 main_cst_6
  let main_v21 : IVec S100x200 1 := cmpf .olt main_v19 main_v20
  let main_c_7 : IVec S_ 1 := constantI S_ 1 1#1
  let main_v22 : IVec S_ 1 := (fun x v => Host.reduce IntOp.andi x v reducesTo_S100x200_S_d0_1 h_S_) main_v21 main_c_7
  let main_v23 : IVec S_ 1 := andi main_v18 main_v22
  let main_v24 : FVec F S100 .f32 := Host.absf main_arg6
  let main_cst_8 : FVec F S_ .f32 := constant S_ .f32 0x7F800000#32
  let main_v25 : FVec F S100 .f32 := broadcastInDim S100 ![] bcast_S_S100 main_cst_8
  let main_v26 : IVec S100 1 := cmpf .olt main_v24 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v23 main_v27
  let main_v29 : FVec F S100x200 .f32 := Host.absf main_arg7
  let main_cst_10 : FVec F S_ .f32 := constant S_ .f32 0x7F800000#32
  let main_v30 : FVec F S100x200 .f32 := broadcastInDim S100x200 ![] bcast_S_S100x200 main_cst_10
  let main_v31 : IVec S100x200 1 := cmpf .olt main_v29 main_v30
  let main_c_11 : IVec S_ 1 := constantI S_ 1 1#1
  let main_v32 : IVec S_ 1 := (fun x v => Host.reduce IntOp.andi x v reducesTo_S100x200_S_d0_1 h_S_) main_v31 main_c_11
  let main_v33 : IVec S_ 1 := andi main_v28 main_v32
  fn_part2 (F := F) main_arg8 main_arg9 main_arg10 main_v33

def fn {F : FTy → Type} [FloatOps F] (main_arg0 : FVec F S20000x256 .f32) (main_arg1 : IVec S2x320000 32) (main_arg2 : FVec F S200x256 .f32) (main_arg3 : FVec F S200 .f32) (main_arg4 : FVec F S200x256 .f32) (main_arg5 : FVec F S100x200 .f32) (main_arg6 : FVec F S100 .f32) (main_arg7 : FVec F S100x200 .f32) (main_arg8 : FVec F S2x100 .f32) (main_arg9 : FVec F S2 .f32) (main_arg10 : FVec F S2x100 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S200x256 .f32 := Host.absf main_arg2
  let main_cst_0 : FVec F S_ .f32 := constant S_ .f32 0x7F800000#32
  let main_v5 : FVec F S200x256 .f32 := broadcastInDim S200x256 ![] bcast_S_S200x256 main_cst_0
  let main_v6 : IVec S200x256 1 := cmpf .olt main_v4 main_v5
  let main_c_1 : IVec S_ 1 := constantI S_ 1 1#1
  let main_v7 : IVec S_ 1 := (fun x v => Host.reduce IntOp.andi x v reducesTo_S200x256_S_d0_1 h_S_) main_v6 main_c_1
  let main_v8 : IVec S_ 1 := andi main_v3 main_v7
  let main_v9 : FVec F S200 .f32 := Host.absf main_arg3
  let main_cst_2 : FVec F S_ .f32 := constant S_ .f32 0x7F800000#32
  let main_v10 : FVec F S200 .f32 := broadcastInDim S200 ![] bcast_S_S200 main_cst_2
  let main_v11 : IVec S200 1 := cmpf .olt main_v9 main_v10
  let main_c_3 : IVec S_ 1 := constantI S_ 1 1#1
  let main_v12 : IVec S_ 1 := (fun x v => Host.reduce IntOp.andi x v reducesTo_S200_S_d0 h_S_) main_v11 main_c_3
  let main_v13 : IVec S_ 1 := andi main_v8 main_v12
  let main_v14 : FVec F S200x256 .f32 := Host.absf main_arg4
  let main_cst_4 : FVec F S_ .f32 := constant S_ .f32 0x7F800000#32
  let main_v15 : FVec F S200x256 .f32 := broadcastInDim S200x256 ![] bcast_S_S200x256 main_cst_4
  let main_v16 : IVec S200x256 1 := cmpf .olt main_v14 main_v15
  fn_part1 (F := F) main_arg5 main_arg6 main_arg7 main_arg8 main_arg9 main_arg10 main_v13 main_v16
-- ==== Kernel.lean ====
abbrev S20000x256 : Shape := ⟨2, ![20000, 256]⟩
abbrev S2x320000 : Shape := ⟨2, ![2, 320000]⟩
abbrev S200x256 : Shape := ⟨2, ![200, 256]⟩
abbrev S200 : Shape := ⟨1, ![200]⟩
abbrev S100x200 : Shape := ⟨2, ![100, 200]⟩
abbrev S100 : Shape := ⟨1, ![100]⟩
abbrev S2x100 : Shape := ⟨2, ![2, 100]⟩
abbrev S2 : Shape := ⟨1, ![2]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S20480x256 : Shape := ⟨2, ![20480, 256]⟩
abbrev S256x200 : Shape := ⟨2, ![256, 200]⟩
abbrev S1x200 : Shape := ⟨2, ![1, 200]⟩
abbrev S20480x200 : Shape := ⟨2, ![20480, 200]⟩
abbrev S2560x256 : Shape := ⟨2, ![2560, 256]⟩
abbrev S2560x200 : Shape := ⟨2, ![2560, 200]⟩
abbrev S20000x200 : Shape := ⟨2, ![20000, 200]⟩
abbrev S320000x200 : Shape := ⟨2, ![320000, 200]⟩
abbrev S200x100 : Shape := ⟨2, ![200, 100]⟩
abbrev S1x100 : Shape := ⟨2, ![1, 100]⟩
abbrev S20480x100 : Shape := ⟨2, ![20480, 100]⟩
abbrev S2560x100 : Shape := ⟨2, ![2560, 100]⟩
abbrev S20000x100 : Shape := ⟨2, ![20000, 100]⟩
abbrev S320000x100 : Shape := ⟨2, ![320000, 100]⟩
abbrev S100x2 : Shape := ⟨2, ![100, 2]⟩
abbrev S1x2 : Shape := ⟨2, ![1, 2]⟩
abbrev S20480x2 : Shape := ⟨2, ![20480, 2]⟩
abbrev S2560x2 : Shape := ⟨2, ![2560, 2]⟩
abbrev S20000x2 : Shape := ⟨2, ![20000, 2]⟩

abbrev nBuf : Space → Nat
  | .hbm => 87
  | .vmem => 27
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S200x256, .f32⟩
  | .hbm, ⟨3, _⟩ => ⟨S200, .f32⟩
  | .hbm, ⟨4, _⟩ => ⟨S200x256, .f32⟩
  | .hbm, ⟨5, _⟩ => ⟨S100x200, .f32⟩
  | .hbm, ⟨6, _⟩ => ⟨S100, .f32⟩
  | .hbm, ⟨7, _⟩ => ⟨S100x200, .f32⟩
  | .hbm, ⟨8, _⟩ => ⟨S2x100, .f32⟩
  | .hbm, ⟨9, _⟩ => ⟨S2, .f32⟩
  | .hbm, ⟨10, _⟩ => ⟨S2x100, .f32⟩
  | .hbm, ⟨11, _⟩ => ⟨S1x320000, .i32⟩
  | .hbm, ⟨12, _⟩ => ⟨S320000, .i32⟩
  | .hbm, ⟨13, _⟩ => ⟨S1x320000, .i32⟩
  | .hbm, ⟨14, _⟩ => ⟨S320000, .i32⟩
  | .hbm, ⟨15, _⟩ => ⟨S_, .i32⟩
  | .hbm, ⟨16, _⟩ => ⟨S320000, .i32⟩
  | .hbm, ⟨17, _⟩ => ⟨S320000, .i1⟩
  | .hbm, ⟨18, _⟩ => ⟨S_, .i32⟩
  | .hbm, ⟨19, _⟩ => ⟨S320000, .i32⟩
  | .hbm, ⟨20, _⟩ => ⟨S320000, .i32⟩
  | .hbm, ⟨21, _⟩ => ⟨S320000, .i32⟩
  | .hbm, ⟨22, _⟩ => ⟨S320000x1, .i32⟩
  | .hbm, ⟨23, _⟩ => ⟨S320000x256, .f32⟩
  | .hbm, ⟨24, _⟩ => ⟨S_, .f32⟩
  | .hbm, ⟨25, _⟩ => ⟨S20000x256, .f32⟩
  | .hbm, ⟨26, _⟩ => ⟨S320000x1, .i32⟩
  | .hbm, ⟨27, _⟩ => ⟨S20000x256, .f32⟩
  | .hbm, ⟨28, _⟩ => ⟨S_, .i32⟩
  | .hbm, ⟨29, _⟩ => ⟨S_, .f32⟩
  | .hbm, ⟨30, _⟩ => ⟨S20480x256, .f32⟩
  | .hbm, ⟨31, _⟩ => ⟨S_, .i32⟩
  | .hbm, ⟨32, _⟩ => ⟨S_, .f32⟩
  | .hbm, ⟨33, _⟩ => ⟨S20480x256, .f32⟩
  | .hbm, ⟨34, _⟩ => ⟨S256x200, .f32⟩
  | .hbm, ⟨35, _⟩ => ⟨S256x200, .f32⟩
  | .hbm, ⟨36, _⟩ => ⟨S1x200, .f32⟩
  | .hbm, ⟨37, _⟩ => ⟨S20480x200, .f32⟩
  | .hbm, ⟨38, _⟩ => ⟨S20000x200, .f32⟩
  | .hbm, ⟨39, _⟩ => ⟨S_, .i32⟩
  | .hbm, ⟨40, _⟩ => ⟨S320000, .i32⟩
  | .hbm, ⟨41, _⟩ => ⟨S320000, .i1⟩
  | .hbm, ⟨42, _⟩ => ⟨S_, .i32⟩
  | .hbm, ⟨43, _⟩ => ⟨S320000, .i32⟩
  | .hbm, ⟨44, _⟩ => ⟨S320000, .i32⟩
  | .hbm, ⟨45, _⟩ => ⟨S320000, .i32⟩
  | .hbm, ⟨46, _⟩ => ⟨S320000x1, .i32⟩
  | .hbm, ⟨47, _⟩ => ⟨S320000x200, .f32⟩
  | .hbm, ⟨48, _⟩ => ⟨S_, .f32⟩
  | .hbm, ⟨49, _⟩ => ⟨S20000x200, .f32⟩
  | .hbm, ⟨50, _⟩ => ⟨S320000x1, .i32⟩
  | .hbm, ⟨51, _⟩ => ⟨S20000x200, .f32⟩
  | .hbm, ⟨52, _⟩ => ⟨S_, .i32⟩
  | .hbm, ⟨53, _⟩ => ⟨S_, .f32⟩
  | .hbm, ⟨54, _⟩ => ⟨S20480x200, .f32⟩
  | .hbm, ⟨55, _⟩ => ⟨S_, .i32⟩
  | .hbm, ⟨56, _⟩ => ⟨S_, .f32⟩
  | .hbm, ⟨57, _⟩ => ⟨S20480x200, .f32⟩
  | .hbm, ⟨58, _⟩ => ⟨S200x100, .f32⟩
  | .hbm, ⟨59, _⟩ => ⟨S200x100, .f32⟩
  | .hbm, ⟨60, _⟩ => ⟨S1x100, .f32⟩
  | .hbm, ⟨61, _⟩ => ⟨S20480x100, .f32⟩
  | .hbm, ⟨62, _⟩ => ⟨S20000x100, .f32⟩
  | .hbm, ⟨63, _⟩ => ⟨S_, .i32⟩
  | .hbm, ⟨64, _⟩ => ⟨S320000, .i32⟩
  | .hbm, ⟨65, _⟩ => ⟨S320000, .i1⟩
  | .hbm, ⟨66, _⟩ => ⟨S_, .i32⟩
  | .hbm, ⟨67, _⟩ => ⟨S320000, .i32⟩
  | .hbm, ⟨68, _⟩ => ⟨S320000, .i32⟩
  | .hbm, ⟨69, _⟩ => ⟨S320000, .i32⟩
  | .hbm, ⟨70, _⟩ => ⟨S320000x1, .i32⟩
  | .hbm, ⟨71, _⟩ => ⟨S320000x100, .f32⟩
  | .hbm, ⟨72, _⟩ => ⟨S_, .f32⟩
  | .hbm, ⟨73, _⟩ => ⟨S20000x100, .f32⟩
  | .hbm, ⟨74, _⟩ => ⟨S320000x1, .i32⟩
  | .hbm, ⟨75, _⟩ => ⟨S20000x100, .f32⟩
  | .hbm, ⟨76, _⟩ => ⟨S_, .i32⟩
  | .hbm, ⟨77, _⟩ => ⟨S_, .f32⟩
  | .hbm, ⟨78, _⟩ => ⟨S20480x100, .f32⟩
  | .hbm, ⟨79, _⟩ => ⟨S_, .i32⟩
  | .hbm, ⟨80, _⟩ => ⟨S_, .f32⟩
  | .hbm, ⟨81, _⟩ => ⟨S20480x100, .f32⟩
  | .hbm, ⟨82, _⟩ => ⟨S100x2, .f32⟩
  | .hbm, ⟨83, _⟩ => ⟨S100x2, .f32⟩
  | .hbm, ⟨84, _⟩ => ⟨S1x2, .f32⟩
  | .hbm, ⟨85, _⟩ => ⟨S20480x2, .f32⟩
  | .hbm, ⟨86, _⟩ => ⟨S20000x2, .f32⟩
  | .local _ .vmem, ⟨0, _⟩ => ⟨S2560x256, .f32⟩
  | .local _ .vmem, ⟨1, _⟩ => ⟨S2560x256, .f32⟩
  | .local _ .vmem, ⟨2, _⟩ => ⟨S2560x256, .f32⟩
  | .local _ .vmem, ⟨3, _⟩ => ⟨S2560x256, .f32⟩
  | .local _ .vmem, ⟨4, _⟩ => ⟨S256x200, .f32⟩
  | .local _ .vmem, ⟨5, _⟩ => ⟨S1x200, .f32⟩
  | .local _ .vmem, ⟨6, _⟩ => ⟨S256x200, .f32⟩
  | .local _ .vmem, ⟨7, _⟩ => ⟨S2560x200, .f32⟩
  | .local _ .vmem, ⟨8, _⟩ => ⟨S2560x200, .f32⟩
  | .local _ .vmem, ⟨9, _⟩ => ⟨S2560x200, .f32⟩
  | .local _ .vmem, ⟨10, _⟩ => ⟨S2560x200, .f32⟩
  | .local _ .vmem, ⟨11, _⟩ => ⟨S2560x200, .f32⟩
  | .local _ .vmem, ⟨12, _⟩ => ⟨S2560x200, .f32⟩
  | .local _ .vmem, ⟨13, _⟩ => ⟨S200x100, .f32⟩
  | .local _ .vmem, ⟨14, _⟩ => ⟨S1x100, .f32⟩
  | .local _ .vmem, ⟨15, _⟩ => ⟨S200x100, .f32⟩
  | .local _ .vmem, ⟨16, _⟩ => ⟨S2560x100, .f32⟩
  | .local _ .vmem, ⟨17, _⟩ => ⟨S2560x100, .f32⟩
  | .local _ .vmem, ⟨18, _⟩ => ⟨S2560x100, .f32⟩
  | .local _ .vmem, ⟨19, _⟩ => ⟨S2560x100, .f32⟩
  | .local _ .vmem, ⟨20, _⟩ => ⟨S2560x100, .f32⟩
  | .local _ .vmem, ⟨21, _⟩ => ⟨S2560x100, .f32⟩
  | .local _ .vmem, ⟨22, _⟩ => ⟨S100x2, .f32⟩
  | .local _ .vmem, ⟨23, _⟩ => ⟨S1x2, .f32⟩
  | .local _ .vmem, ⟨24, _⟩ => ⟨S100x2, .f32⟩
  | .local _ .vmem, ⟨25, _⟩ => ⟨S2560x2, .f32⟩
  | .local _ .vmem, ⟨26, _⟩ => ⟨S2560x2, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_call0_v0 : Ref sig .tc := ⟨.hbm, 29, rfl⟩
abbrev main_v14 : Ref sig .tc := ⟨.hbm, 30, rfl⟩
abbrev main_c_2 : Ref sig .tc := ⟨.hbm, 31, rfl⟩
abbrev main_call1_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_call2_v0 : Ref sig .tc := ⟨.hbm, 53, rfl⟩
abbrev main_v31 : Ref sig .tc := ⟨.hbm, 54, rfl⟩
abbrev main_c_7 : Ref sig .tc := ⟨.hbm, 55, rfl⟩
abbrev main_call3_v0 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_8 : Ref sig .tc := ⟨.hbm, 63, rfl⟩
abbrev main_v38 : Ref sig .tc := ⟨.hbm, 64, rfl⟩
abbrev main_v39 : Ref sig .tc := ⟨.hbm, 65, rfl⟩
abbrev main_c_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_10 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_11 : Ref sig .tc := ⟨.hbm, 76, rfl⟩
abbrev main_call4_v0 : Ref sig .tc := ⟨.hbm, 77, rfl⟩
abbrev main_v48 : Ref sig .tc := ⟨.hbm, 78, rfl⟩
abbrev main_c_12 : Ref sig .tc := ⟨.hbm, 79, rfl⟩
abbrev main_call5_v0 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2560x200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2560x200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2560x200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S200x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S200x100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2560x100 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2560x100 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2560x100 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S100x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S100x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2560x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x256 : S_.BroadcastsInDim S20000x256 (![] : Fin 0 → Fin S20000x256.rank)
  pads_S20000x256_S20480x256_04800_000 : S20000x256.Pads (![0, 0] : Fin 2 → Nat) ![480, 0] ![0, 0] S20480x256
  h_S_ : 0 < S_.numel
  transposes_S200x256_S256x200_1_0 : S200x256.Transposes [1, 0] S256x200
  shapeCasts_S200_S1x200 : S200.ShapeCasts S1x200
  inb_S2560x256_S2560x256_0_0 : ∀ a, (![0, 0] : Fin 2 → Nat) a + S2560x256.size a ≤ S2560x256.size a
  h_S2560x256 : 0 < S2560x256.numel
  shapeCasts_S2560x256_S2560x256 : S2560x256.ShapeCasts S2560x256
  bitsLt_bf16_f32 : FTy.bits .bf16 < FTy.bits .f32
  inb_S256x200_S256x200_0_0 : ∀ a, (![0, 0] : Fin 2 → Nat) a + S256x200.size a ≤ S256x200.size a
  h_S256x200 : 0 < S256x200.numel
  shapeCasts_S256x200_S256x200 : S256x200.ShapeCasts S256x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S2560x200 : S1x200.Broadcasts S2560x200
  inb_S2560x200_S2560x200_0_0 : ∀ a, (![0, 0] : Fin 2 → Nat) a + S2560x200.size a ≤ S2560x200.size a
  h_S2560x200 : 0 < S2560x200.numel
  slices_S20480x200_S20000x200_0_0 : S20480x200.Slices ![0, 0] S20000x200
  bcast_S_S20000x200 : S_.BroadcastsInDim S20000x200 (![] : Fin 0 → Fin S20000x200.rank)
  pads_S20000x200_S20480x200_04800_000 : S20000x200.Pads (![0, 0] : Fin 2 → Nat) ![480, 0] ![0, 0] S20480x200
  transposes_S100x200_S200x100_1_0 : S100x200.Transposes [1, 0] S200x100
  shapeCasts_S100_S1x100 : S100.ShapeCasts S1x100
  shapeCasts_S2560x200_S2560x200 : S2560x200.ShapeCasts S2560x200
  inb_S200x100_S200x100_0_0 : ∀ a, (![0, 0] : Fin 2 → Nat) a + S200x100.size a ≤ S200x100.size a
  h_S200x100 : 0 < S200x100.numel
  shapeCasts_S200x100_S200x100 : S200x100.ShapeCasts S200x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S2560x100 : S1x100.Broadcasts S2560x100
  inb_S2560x100_S2560x100_0_0 : ∀ a, (![0, 0] : Fin 2 → Nat) a + S2560x100.size a ≤ S2560x100.size a
  h_S2560x100 : 0 < S2560x100.numel
  slices_S20480x100_S20000x100_0_0 : S20480x100.Slices ![0, 0] S20000x100
  bcast_S_S20000x100 : S_.BroadcastsInDim S20000x100 (![] : Fin 0 → Fin S20000x100.rank)
  pads_S20000x100_S20480x100_04800_000 : S20000x100.Pads (![0, 0] : Fin 2 → Nat) ![480, 0] ![0, 0] S20480x100
  transposes_S2x100_S100x2_1_0 : S2x100.Transposes [1, 0] S100x2
  shapeCasts_S2_S1x2 : S2.ShapeCasts S1x2
  shapeCasts_S2560x100_S2560x100 : S2560x100.ShapeCasts S2560x100
  inb_S100x2_S100x2_0_0 : ∀ a, (![0, 0] : Fin 2 → Nat) a + S100x2.size a ≤ S100x2.size a
  h_S100x2 : 0 < S100x2.numel
  shapeCasts_S100x2_S100x2 : S100x2.ShapeCasts S100x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2560x2 : S1x2.Broadcasts S2560x2
  inb_S2560x2_S2560x2_0_0 : ∀ a, (![0, 0] : Fin 2 → Nat) a + S2560x2.size a ≤ S2560x2.size a
  h_S2560x2 : 0 < S2560x2.numel
  slices_S20480x2_S20000x2_0_0 : S20480x2.Slices ![0, 0] S20000x2
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S2560x256_S256x200_S2560x200_1_0_0_1_n_n_wf : DotDims.WF S2560x256 S256x200 S2560x200 [1] [0] [0] [1] [] []
  gather_S20000x200_S320000x1_S320000x200_1_0_n_n_0_1_1200_wf : GatherDims.WF S20000x200 S320000x1 S320000x200 [1] [0] [] [0] [] 1 ![1, 200]
  scatter_S20000x200_S320000x1_S320000x200_1_0_0_1_wf : ScatterDims.WF S20000x200 S320000x1 S320000x200 [1] [0] [0] 1
  dot_S2560x200_S200x100_S2560x100_1_0_0_1_n_n_wf : DotDims.WF S2560x200 S200x100 S2560x100 [1] [0] [0] [1] [] []
  gather_S20000x100_S320000x1_S320000x100_1_0_n_n_0_1_1100_wf : GatherDims.WF S20000x100 S320000x1 S320000x100 [1] [0] [] [0] [] 1 ![1, 100]
  scatter_S20000x100_S320000x1_S320000x100_1_0_0_1_wf : ScatterDims.WF S20000x100 S320000x1 S320000x100 [1] [0] [0] 1
  dot_S2560x100_S100x2_S2560x2_1_0_0_1_n_n_wf : DotDims.WF S2560x100 S100x2 S2560x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x256.size a ≤ S20480x256.size a
  hwx0_0 : ∀ i : grid0.Coords, EltTy.bits .f32 = 32 ∨ (Rect.block (s := S20480x256) S2560x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x256.size a ≤ S20480x256.size a
  hwx0_1 : ∀ i : grid0.Coords, EltTy.bits .f32 = 32 ∨ (Rect.block (s := S20480x256) S2560x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x200.size a ≤ S256x200.size a
  hwx0_2 : ∀ i : grid0.Coords, EltTy.bits .f32 = 32 ∨ (Rect.block (s := S256x200) S256x200.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x200.size a ≤ S1x200.size a
  hwx0_3 : ∀ i : grid0.Coords, EltTy.bits .f32 = 32 ∨ (Rect.block (s := S1x200) S1x200.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x200.size a ≤ S256x200.size a
  hwx0_4 : ∀ i : grid0.Coords, EltTy.bits .f32 = 32 ∨ (Rect.block (s := S256x200) S256x200.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2560x200.size a ≤ S20480x200.size a
  hwx0_5 : ∀ i : grid0.Coords, EltTy.bits .f32 = 32 ∨ (Rect.block (s := S20480x200) S2560x200.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2560x200.size a ≤ S20480x200.size a
  hwx1_0 : ∀ i : grid1.Coords, EltTy.bits .f32 = 32 ∨ (Rect.block (s := S20480x200) S2560x200.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2560x200.size a ≤ S20480x200.size a
  hwx1_1 : ∀ i : grid1.Coords, EltTy.bits .f32 = 32 ∨ (Rect.block (s := S20480x200) S2560x200.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S200x100.size a ≤ S200x100.size a
  hwx1_2 : ∀ i : grid1.Coords, EltTy.bits .f32 = 32 ∨ (Rect.block (s := S200x100) S200x100.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x100.size a ≤ S1x100.size a
  hwx1_3 : ∀ i : grid1.Coords, EltTy.bits .f32 = 32 ∨ (Rect.block (s := S1x100) S1x100.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S200x100.size a ≤ S200x100.size a
  hwx1_4 : ∀ i : grid1.Coords, EltTy.bits .f32 = 32 ∨ (Rect.block (s := S200x100) S200x100.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2560x100.size a ≤ S20480x100.size a
  hwx1_5 : ∀ i : grid1.Coords, EltTy.bits .f32 = 32 ∨ (Rect.block (s := S20480x100) S2560x100.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2560x100.size a ≤ S20480x100.size a
  hwx2_0 : ∀ i : grid2.Coords, EltTy.bits .f32 = 32 ∨ (Rect.block (s := S20480x100) S2560x100.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2560x100.size a ≤ S20480x100.size a
  hwx2_1 : ∀ i : grid2.Coords, EltTy.bits .f32 = 32 ∨ (Rect.block (s := S20480x100) S2560x100.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S100x2.size a ≤ S100x2.size a
  hwx2_2 : ∀ i : grid2.Coords, EltTy.bits .f32 = 32 ∨ (Rect.block (s := S100x2) S100x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2.size a ≤ S1x2.size a
  hwx2_3 : ∀ i : grid2.Coords, EltTy.bits .f32 = 32 ∨ (Rect.block (s := S1x2) S1x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S100x2.size a ≤ S100x2.size a
  hwx2_4 : ∀ i : grid2.Coords, EltTy.bits .f32 = 32 ∨ (Rect.block (s := S100x2) S100x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2560x2.size a ≤ S20480x2.size a
  hwx2_5 : ∀ i : grid2.Coords, EltTy.bits .f32 = 32 ∨ (Rect.block (s := S20480x2) S2560x2.size (cc2_transform_5 i) (hinb2_5 i)).WholeWords (EltTy.packing .f32)

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S2560x256_S256x200_S2560x200_1_0_0_1_n_n : DotDims S2560x256 S256x200 S2560x200 where
  lhsContracting := [1]
  rhsContracting := [0]
  lhsNonContracting := [0]
  rhsNonContracting := [1]
  lhsBatch := []
  rhsBatch := []
  wf := dot_S2560x256_S256x200_S2560x200_1_0_0_1_n_n_wf
def gather_S20000x200_S320000x1_S320000x200_1_0_n_n_0_1_1200 : GatherDims S20000x200 S320000x1 S320000x200 where
  offsetDims := [1]
  collapsedSliceDims := [0]
  operandBatchingDims := []
  startIndicesBatchingDims := []
  startIndexMap := [0]
  indexVectorDim := 1
  sliceSizes := ![1, 200]
  wf := gather_S20000x200_S320000x1_S320000x200_1_0_n_n_0_1_1200_wf
def scatter_S20000x200_S320000x1_S320000x200_1_0_0_1 : ScatterDims S20000x200 S320000x1 S320000x200 where
  updateWindowDims := [1]
  insertedWindowDims := [0]
  scatterDimsToOperandDims := [0]
  indexVectorDim := 1
  wf := scatter_S20000x200_S320000x1_S320000x200_1_0_0_1_wf
def dot_S2560x200_S200x100_S2560x100_1_0_0_1_n_n : DotDims S2560x200 S200x100 S2560x100 where
  lhsContracting := [1]
  rhsContracting := [0]
  lhsNonContracting := [0]
  rhsNonContracting := [1]
  lhsBatch := []
  rhsBatch := []
  wf := dot_S2560x200_S200x100_S2560x100_1_0_0_1_n_n_wf
def gather_S20000x100_S320000x1_S320000x100_1_0_n_n_0_1_1100 : GatherDims S20000x100 S320000x1 S320000x100 where
  offsetDims := [1]
  collapsedSliceDims := [0]
  operandBatchingDims := []
  startIndicesBatchingDims := []
  startIndexMap := [0]
  indexVectorDim := 1
  sliceSizes := ![1, 100]
  wf := gather_S20000x100_S320000x1_S320000x100_1_0_n_n_0_1_1100_wf
def scatter_S20000x100_S320000x1_S320000x100_1_0_0_1 : ScatterDims S20000x100 S320000x1 S320000x100 where
  updateWindowDims := [1]
  insertedWindowDims := [0]
  scatterDimsToOperandDims := [0]
  indexVectorDim := 1
  wf := scatter_S20000x100_S320000x1_S320000x100_1_0_0_1_wf
def dot_S2560x100_S100x2_S2560x2_1_0_0_1_n_n : DotDims S2560x100 S100x2 S2560x2 where
  lhsContracting := [1]
  rhsContracting := [0]
  lhsNonContracting := [0]
  rhsNonContracting := [1]
  lhsBatch := []
  rhsBatch := []
  wf := dot_S2560x100_S100x2_S2560x2_1_0_0_1_n_n_wf

abbrev win0_0 : Pipeline.Window sig grid0 :=
  Pipeline.Window.ofSpec (Memref.whole main_v14) S2560x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2560x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S256x200.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S256x200.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2560x200.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S2560x200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2560x200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S200x100.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x100.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S200x100.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S2560x100.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v48) S2560x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S2560x100.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S100x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S100x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S2560x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S20000x256 : Shape := ⟨2, ![20000, 256]⟩
abbrev S2x320000 : Shape := ⟨2, ![2, 320000]⟩
abbrev S200x256 : Shape := ⟨2, ![200, 256]⟩
abbrev S200 : Shape := ⟨1, ![200]⟩
abbrev S100x200 : Shape := ⟨2, ![100, 200]⟩
abbrev S100 : Shape := ⟨1, ![100]⟩
abbrev S2x100 : Shape := ⟨2, ![2, 100]⟩
abbrev S2 : Shape := ⟨1, ![2]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S256x200 : Shape := ⟨2, ![256, 200]⟩
abbrev S20000x200 : Shape := ⟨2, ![20000, 200]⟩
abbrev S1x200 : Shape := ⟨2, ![1, 200]⟩
abbrev S320000x200 : Shape := ⟨2, ![320000, 200]⟩
abbrev S200x100 : Shape := ⟨2, ![200, 100]⟩
abbrev S20000x100 : Shape := ⟨2, ![20000, 100]⟩
abbrev S1x100 : Shape := ⟨2, ![1, 100]⟩
abbrev S320000x100 : Shape := ⟨2, ![320000, 100]⟩
abbrev S100x2 : Shape := ⟨2, ![100, 2]⟩
abbrev S20000x2 : Shape := ⟨2, ![20000, 2]⟩
abbrev S1x2 : Shape := ⟨2, ![1, 2]⟩

abbrev nBuf : Space → Nat
  | .hbm => 87
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S200x256, .f32⟩
  | .hbm, ⟨3, _⟩ => ⟨S200, .f32⟩
  | .hbm, ⟨4, _⟩ => ⟨S200x256, .f32⟩
  | .hbm, ⟨5, _⟩ => ⟨S100x200, .f32⟩
  | .hbm, ⟨6, _⟩ => ⟨S100, .f32⟩
  | .hbm, ⟨7, _⟩ => ⟨S100x200, .f32⟩
  | .hbm, ⟨8, _⟩ => ⟨S2x100, .f32⟩
  | .hbm, ⟨9, _⟩ => ⟨S2, .f32⟩
  | .hbm, ⟨10, _⟩ => ⟨S2x100, .f32⟩
  | .hbm, ⟨11, _⟩ => ⟨S1x320000, .i32⟩
  | .hbm, ⟨12, _⟩ => ⟨S320000, .i32⟩
  | .hbm, ⟨13, _⟩ => ⟨S1x320000, .i32⟩
  | .hbm, ⟨14, _⟩ => ⟨S320000, .i32⟩
  | .hbm, ⟨15, _⟩ => ⟨S_, .i32⟩
  | .hbm, ⟨16, _⟩ => ⟨S320000, .i32⟩
  | .hbm, ⟨17, _⟩ => ⟨S320000, .i1⟩
  | .hbm, ⟨18, _⟩ => ⟨S_, .i32⟩
  | .hbm, ⟨19, _⟩ => ⟨S320000, .i32⟩
  | .hbm, ⟨20, _⟩ => ⟨S320000, .i32⟩
  | .hbm, ⟨21, _⟩ => ⟨S320000, .i32⟩
  | .hbm, ⟨22, _⟩ => ⟨S320000x1, .i32⟩
  | .hbm, ⟨23, _⟩ => ⟨S320000x256, .f32⟩
  | .hbm, ⟨24, _⟩ => ⟨S_, .f32⟩
  | .hbm, ⟨25, _⟩ => ⟨S20000x256, .f32⟩
  | .hbm, ⟨26, _⟩ => ⟨S320000x1, .i32⟩
  | .hbm, ⟨27, _⟩ => ⟨S20000x256, .f32⟩
  | .hbm, ⟨28, _⟩ => ⟨S256x200, .f32⟩
  | .hbm, ⟨29, _⟩ => ⟨S20000x200, .f32⟩
  | .hbm, ⟨30, _⟩ => ⟨S1x200, .f32⟩
  | .hbm, ⟨31, _⟩ => ⟨S20000x200, .f32⟩
  | .hbm, ⟨32, _⟩ => ⟨S20000x200, .f32⟩
  | .hbm, ⟨33, _⟩ => ⟨S256x200, .f32⟩
  | .hbm, ⟨34, _⟩ => ⟨S20000x200, .f32⟩
  | .hbm, ⟨35, _⟩ => ⟨S20000x200, .f32⟩
  | .hbm, ⟨36, _⟩ => ⟨S_, .f32⟩
  | .hbm, ⟨37, _⟩ => ⟨S20000x200, .f32⟩
  | .hbm, ⟨38, _⟩ => ⟨S20000x200, .f32⟩
  | .hbm, ⟨39, _⟩ => ⟨S_, .i32⟩
  | .hbm, ⟨40, _⟩ => ⟨S320000, .i32⟩
  | .hbm, ⟨41, _⟩ => ⟨S320000, .i1⟩
  | .hbm, ⟨42, _⟩ => ⟨S_, .i32⟩
  | .hbm, ⟨43, _⟩ => ⟨S320000, .i32⟩
  | .hbm, ⟨44, _⟩ => ⟨S320000, .i32⟩
  | .hbm, ⟨45, _⟩ => ⟨S320000, .i32⟩
  | .hbm, ⟨46, _⟩ => ⟨S320000x1, .i32⟩
  | .hbm, ⟨47, _⟩ => ⟨S320000x200, .f32⟩
  | .hbm, ⟨48, _⟩ => ⟨S_, .f32⟩
  | .hbm, ⟨49, _⟩ => ⟨S20000x200, .f32⟩
  | .hbm, ⟨50, _⟩ => ⟨S320000x1, .i32⟩
  | .hbm, ⟨51, _⟩ => ⟨S20000x200, .f32⟩
  | .hbm, ⟨52, _⟩ => ⟨S200x100, .f32⟩
  | .hbm, ⟨53, _⟩ => ⟨S20000x100, .f32⟩
  | .hbm, ⟨54, _⟩ => ⟨S1x100, .f32⟩
  | .hbm, ⟨55, _⟩ => ⟨S20000x100, .f32⟩
  | .hbm, ⟨56, _⟩ => ⟨S20000x100, .f32⟩
  | .hbm, ⟨57, _⟩ => ⟨S200x100, .f32⟩
  | .hbm, ⟨58, _⟩ => ⟨S20000x100, .f32⟩
  | .hbm, ⟨59, _⟩ => ⟨S20000x100, .f32⟩
  | .hbm, ⟨60, _⟩ => ⟨S_, .f32⟩
  | .hbm, ⟨61, _⟩ => ⟨S20000x100, .f32⟩
  | .hbm, ⟨62, _⟩ => ⟨S20000x100, .f32⟩
  | .hbm, ⟨63, _⟩ => ⟨S_, .i32⟩
  | .hbm, ⟨64, _⟩ => ⟨S320000, .i32⟩
  | .hbm, ⟨65, _⟩ => ⟨S320000, .i1⟩
  | .hbm, ⟨66, _⟩ => ⟨S_, .i32⟩
  | .hbm, ⟨67, _⟩ => ⟨S320000, .i32⟩
  | .hbm, ⟨68, _⟩ => ⟨S320000, .i32⟩
  | .hbm, ⟨69, _⟩ => ⟨S320000, .i32⟩
  | .hbm, ⟨70, _⟩ => ⟨S320000x1, .i32⟩
  | .hbm, ⟨71, _⟩ => ⟨S320000x100, .f32⟩
  | .hbm, ⟨72, _⟩ => ⟨S_, .f32⟩
  | .hbm, ⟨73, _⟩ => ⟨S20000x100, .f32⟩
  | .hbm, ⟨74, _⟩ => ⟨S320000x1, .i32⟩
  | .hbm, ⟨75, _⟩ => ⟨S20000x100, .f32⟩
  | .hbm, ⟨76, _⟩ => ⟨S100x2, .f32⟩
  | .hbm, ⟨77, _⟩ => ⟨S20000x2, .f32⟩
  | .hbm, ⟨78, _⟩ => ⟨S1x2, .f32⟩
  | .hbm, ⟨79, _⟩ => ⟨S20000x2, .f32⟩
  | .hbm, ⟨80, _⟩ => ⟨S20000x2, .f32⟩
  | .hbm, ⟨81, _⟩ => ⟨S100x2, .f32⟩
  | .hbm, ⟨82, _⟩ => ⟨S20000x2, .f32⟩
  | .hbm, ⟨83, _⟩ => ⟨S20000x2, .f32⟩
  | .hbm, ⟨84, _⟩ => ⟨S_, .f32⟩
  | .hbm, ⟨85, _⟩ => ⟨S20000x2, .f32⟩
  | .hbm, ⟨86, _⟩ => ⟨S20000x2, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_cst : Ref sig .tc := ⟨.hbm, 36, rfl⟩
abbrev main_call0_v0 : Ref sig .tc := ⟨.hbm, 37, rfl⟩
abbrev main_v22 : Ref sig .tc := ⟨.hbm, 38, rfl⟩
abbrev main_c_1 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call1_cst : Ref sig .tc := ⟨.hbm, 60, rfl⟩
abbrev main_call1_v0 : Ref sig .tc := ⟨.hbm, 61, rfl⟩
abbrev main_v41 : Ref sig .tc := ⟨.hbm, 62, rfl⟩
abbrev main_c_4 : Ref sig .tc := ⟨.hbm, 63, rfl⟩
abbrev main_v42 : Ref sig .tc := ⟨.hbm, 64, rfl⟩
abbrev main_v43 : Ref sig .tc := ⟨.hbm, 65, rfl⟩
abbrev main_c_5 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_6 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call2_cst : Ref sig .tc := ⟨.hbm, 84, rfl⟩
abbrev main_call2_v0 : Ref sig .tc := ⟨.hbm, 85, rfl⟩
abbrev main_v60 : Ref sig .tc := ⟨.hbm, 86, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x256 : S_.BroadcastsInDim S20000x256 (![] : Fin 0 → Fin S20000x256.rank)
  transposes_S200x256_S256x200_1_0 : S200x256.Transposes [1, 0] S256x200
  bcast_S200_S1x200_1 : S200.BroadcastsInDim S1x200 (![1] : Fin 1 → Fin S1x200.rank)
  bcast_S1x200_S20000x200_0_1 : S1x200.BroadcastsInDim S20000x200 (![0, 1] : Fin 2 → Fin S20000x200.rank)
  bcast_S_S20000x200 : S_.BroadcastsInDim S20000x200 (![] : Fin 0 → Fin S20000x200.rank)
  transposes_S100x200_S200x100_1_0 : S100x200.Transposes [1, 0] S200x100
  bcast_S100_S1x100_1 : S100.BroadcastsInDim S1x100 (![1] : Fin 1 → Fin S1x100.rank)
  bcast_S1x100_S20000x100_0_1 : S1x100.BroadcastsInDim S20000x100 (![0, 1] : Fin 2 → Fin S20000x100.rank)
  bcast_S_S20000x100 : S_.BroadcastsInDim S20000x100 (![] : Fin 0 → Fin S20000x100.rank)
  transposes_S2x100_S100x2_1_0 : S2x100.Transposes [1, 0] S100x2
  bcast_S2_S1x2_1 : S2.BroadcastsInDim S1x2 (![1] : Fin 1 → Fin S1x2.rank)
  bcast_S1x2_S20000x2_0_1 : S1x2.BroadcastsInDim S20000x2 (![0, 1] : Fin 2 → Fin S20000x2.rank)
  bcast_S_S20000x2 : S_.BroadcastsInDim S20000x2 (![] : Fin 0 → Fin S20000x2.rank)
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x200_S20000x200_1_0_0_1_n_n_wf : DotDims.WF S20000x256 S256x200 S20000x200 [1] [0] [0] [1] [] []
  gather_S20000x200_S320000x1_S320000x200_1_0_n_n_0_1_1200_wf : GatherDims.WF S20000x200 S320000x1 S320000x200 [1] [0] [] [0] [] 1 ![1, 200]
  scatter_S20000x200_S320000x1_S320000x200_1_0_0_1_wf : ScatterDims.WF S20000x200 S320000x1 S320000x200 [1] [0] [0] 1
  dot_S20000x200_S200x100_S20000x100_1_0_0_1_n_n_wf : DotDims.WF S20000x200 S200x100 S20000x100 [1] [0] [0] [1] [] []
  gather_S20000x100_S320000x1_S320000x100_1_0_n_n_0_1_1100_wf : GatherDims.WF S20000x100 S320000x1 S320000x100 [1] [0] [] [0] [] 1 ![1, 100]
  scatter_S20000x100_S320000x1_S320000x100_1_0_0_1_wf : ScatterDims.WF S20000x100 S320000x1 S320000x100 [1] [0] [0] 1
  dot_S20000x100_S100x2_S20000x2_1_0_0_1_n_n_wf : DotDims.WF S20000x100 S100x2 S20000x2 [1] [0] [0] [1] [] []

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x200_S20000x200_1_0_0_1_n_n : DotDims S20000x256 S256x200 S20000x200 where
  lhsContracting := [1]
  rhsContracting := [0]
  lhsNonContracting := [0]
  rhsNonContracting := [1]
  lhsBatch := []
  rhsBatch := []
  wf := dot_S20000x256_S256x200_S20000x200_1_0_0_1_n_n_wf
def gather_S20000x200_S320000x1_S320000x200_1_0_n_n_0_1_1200 : GatherDims S20000x200 S320000x1 S320000x200 where
  offsetDims := [1]
  collapsedSliceDims := [0]
  operandBatchingDims := []
  startIndicesBatchingDims := []
  startIndexMap := [0]
  indexVectorDim := 1
  sliceSizes := ![1, 200]
  wf := gather_S20000x200_S320000x1_S320000x200_1_0_n_n_0_1_1200_wf
def scatter_S20000x200_S320000x1_S320000x200_1_0_0_1 : ScatterDims S20000x200 S320000x1 S320000x200 where
  updateWindowDims := [1]
  insertedWindowDims := [0]
  scatterDimsToOperandDims := [0]
  indexVectorDim := 1
  wf := scatter_S20000x200_S320000x1_S320000x200_1_0_0_1_wf
def dot_S20000x200_S200x100_S20000x100_1_0_0_1_n_n : DotDims S20000x200 S200x100 S20000x100 where
  lhsContracting := [1]
  rhsContracting := [0]
  lhsNonContracting := [0]
  rhsNonContracting := [1]
  lhsBatch := []
  rhsBatch := []
  wf := dot_S20000x200_S200x100_S20000x100_1_0_0_1_n_n_wf
def gather_S20000x100_S320000x1_S320000x100_1_0_n_n_0_1_1100 : GatherDims S20000x100 S320000x1 S320000x100 where
  offsetDims := [1]
  collapsedSliceDims := [0]
  operandBatchingDims := []
  startIndicesBatchingDims := []
  startIndexMap := [0]
  indexVectorDim := 1
  sliceSizes := ![1, 100]
  wf := gather_S20000x100_S320000x1_S320000x100_1_0_n_n_0_1_1100_wf
def scatter_S20000x100_S320000x1_S320000x100_1_0_0_1 : ScatterDims S20000x100 S320000x1 S320000x100 where
  updateWindowDims := [1]
  insertedWindowDims := [0]
  scatterDimsToOperandDims := [0]
  indexVectorDim := 1
  wf := scatter_S20000x100_S320000x1_S320000x100_1_0_0_1_wf
def dot_S20000x100_S100x2_S20000x2_1_0_0_1_n_n : DotDims S20000x100 S100x2 S20000x2 where
  lhsContracting := [1]
  rhsContracting := [0]
  lhsNonContracting := [0]
  rhsNonContracting := [1]
  lhsBatch := []
  rhsBatch := []
  wf := dot_S20000x100_S100x2_S20000x2_1_0_0_1_n_n_wf

class Facts : Prop extends Facts₀ where

variable [Facts]
-- ==== Proof.KernelRun.lean ====
/-
  The idealized kernel's run with its result named.

  The program is three pallas_calls among stretches of host operations. Its run is a chain of segments; at every segment
  boundary the contents of all the TensorCore's buffers are known as a fold from the launch memory (the last one, after
  the final slice, is `Gen.W19`). Every weakly fair execution terminates with every unscoped buffer at that last
  boundary's contents: so the result buffer ends at `Gen.W19` read at the result's reference, and the eleven argument
  arrays end as launched. The value of `Gen.W19` at the result, as a function of the arguments, is computed elsewhere.
-/
import proofs.«162557_j84859963834407_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, without a fault, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v54) = W19 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v54 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c)⟩)

end Cert.KernelIdeal.Run

end
-- ==== Proof.LibTwoBlocks.lean ====
/-
  Three readings, at an entry, that come up when one matrix product over a joined axis is compared with two products
  over its parts, for any sizes.

  * A sum over `n = a + b` indices is the sum over the first `a` plus the sum over the last `b` (in any commutative
    monoid: only the grouping changes).
  * An `M × K` by `K × N` matrix product accumulated into zero reads, at `(p, q)`, the sum over `c` of
    `A (p, c) * B (c, q)`.
  * Two matrices with the same number of columns stacked one above the other read, at `(i, j)`, the upper one at
    `(i, j)` for a row of the upper piece and the lower one at `(i - a₁, j)` otherwise.
-/
import Mathlib.Algebra.BigOperators.Fin
import Idealize.ShloMosaic.Lib.Pipeline.Value
import Idealize.ShloMosaic.Lib.ValueIdx
import Idealize.ShloMosaic.PureOps.Ideal.Laws

noncomputable section

open scoped BigOperators

namespace Cert.Lib.TwoBlocks

open Idealize.ShloMosaic Idealize.ShloMosaic.ValueIdx

/-- A sum over `a + b` indices as the sum over the first `a` plus the sum over the last `b`. -/
theorem sum_two_blocks {M : Type*} [AddCommMonoid M] {a b n : ℕ} (hn : a + b = n) (f : Fin n → M) :
    ∑ k, f k = ∑ k : Fin a, f ⟨k.val, by have := k.isLt; omega⟩ + ∑ k : Fin b, f ⟨a + k.val, by have := k.isLt; omega⟩ := by
  subst hn
  rw [Fin.sum_univ_add]
  exact congrArg₂ (· + ·) (Finset.sum_congr rfl fun k _ => congrArg f (Fin.ext rfl))
    (Finset.sum_congr rfl fun k _ => congrArg f (Fin.ext rfl))

/-- An `M × K` by `K × N` product into the zero accumulator reads, at `(p, q)`, the sum over the shared axis. The
    dimension numbers are any that contract the left operand's columns with the right operand's rows and batch
    nothing (`hD`). -/
theorem plain_matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    matmul D prec A B (constant ⟨2, ![M, N]⟩ .f32 0x00000000#32) (ix2 p q) = ∑ c : Fin K, A (ix2 p c) * B (ix2 c q) := by
  subst hD
  show FloatOps.matmul (DotDims.plain M K N) prec A B _ (ix2 p q) = _
  rw [Ideal.matmul_constant_zero_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

variable {α : Type}

/-- A row of the upper piece: the stack at `(i, j)` with `i = k < a₁` is the upper piece at `(k, j)`. -/
theorem concat_rows_upper {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₁) (hk : k.val = i.val) :
    concatenate ⟨2, ![n, b]⟩ 0 [⟨⟨2, ![a₁, b]⟩, x₁⟩, ⟨⟨2, ![a₂, b]⟩, x₂⟩] h (ix2 i j) = x₁ (ix2 k j) :=
  concatenate_pair_apply_left (t := ⟨2, ![n, b]⟩) 0 x₁ x₂ h (ix2 i j) rfl (ix2 k j) (fun ax => by
    match ax with
    | ⟨0, _⟩ => exact hk
    | ⟨1, _⟩ => rfl)

/-- A row of the lower piece: the stack at `(i, j)` with `i = a₁ + k` is the lower piece at `(k, j)`. -/
theorem concat_rows_lower {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₂) (hk : a₁ + k.val = i.val) :
    concatenate ⟨2, ![n, b]⟩ 0 [⟨⟨2, ![a₁, b]⟩, x₁⟩, ⟨⟨2, ![a₂, b]⟩, x₂⟩] h (ix2 i j) = x₂ (ix2 k j) :=
  concatenate_pair_apply_right (t := ⟨2, ![n, b]⟩) 0 x₁ x₂ h (ix2 i j) rfl rfl (ix2 k j) (fun ax hb => by
    match ax with
    | ⟨0, _⟩ => exact absurd rfl hb
    | ⟨1, _⟩ => rfl) (by
    show k.val + a₁ = i.val
    omega)

end Cert.Lib.TwoBlocks

end
-- ==== Proof.LibConcatCols.lean ====
/-
  Two matrices with the same number of rows set side by side, read at an entry, for any sizes.

  The concatenation of an `a × b₁` matrix and an `a × b₂` matrix along the columns is an `a × n` matrix with
  `n = b₁ + b₂`. Its entry `(i, j)` is the first matrix's entry `(i, j)` when `j < b₁`, and the second matrix's
  entry `(i, j - b₁)` otherwise. The two lemmas below say so with the caller naming the piece's column `k`.
-/
import Idealize.ShloMosaic.Lib.Pipeline.Value
import Idealize.ShloMosaic.Lib.ValueIdx

noncomputable section

namespace Cert.Lib.ConcatCols

open Idealize.ShloMosaic Idealize.ShloMosaic.ValueIdx

variable {α : Type}

/-- A column of the left piece: the concatenation at `(i, j)` with `j = k < b₁` is the left piece at `(i, k)`. -/
theorem concat_cols_left {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₁) (hk : k.val = j.val) :
    concatenate ⟨2, ![a, n]⟩ 1 [⟨⟨2, ![a, b₁]⟩, x₁⟩, ⟨⟨2, ![a, b₂]⟩, x₂⟩] h (ix2 i j) = x₁ (ix2 i k) :=
  concatenate_pair_apply_left (t := ⟨2, ![a, n]⟩) 1 x₁ x₂ h (ix2 i j) rfl (ix2 i k) (fun b => by
    match b with
    | ⟨0, _⟩ => rfl
    | ⟨1, _⟩ => exact hk)

/-- A column of the right piece: the concatenation at `(i, j)` with `j = b₁ + k` is the right piece at `(i, k)`. -/
theorem concat_cols_right {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₂) (hk : b₁ + k.val = j.val) :
    concatenate ⟨2, ![a, n]⟩ 1 [⟨⟨2, ![a, b₁]⟩, x₁⟩, ⟨⟨2, ![a, b₂]⟩, x₂⟩] h (ix2 i j) = x₂ (ix2 i k) :=
  concatenate_pair_apply_right (t := ⟨2, ![a, n]⟩) 1 x₁ x₂ h (ix2 i j) rfl rfl (ix2 i k) (fun b hb => by
    match b with
    | ⟨0, _⟩ => rfl
    | ⟨1, _⟩ => exact absurd rfl hb) (by
    show k.val + b₁ = j.val
    omega)

end Cert.Lib.ConcatCols

end
-- ==== Proof.LibDenseLayer.lean ====
/-
  A dense layer read at an entry, and cut into blocks of rows, for any sizes.

  A dense layer takes an `n × K` matrix `X`, a `K × C` weight matrix `W` and a `1 × C` bias row `B`; its entry
  `(p, q)` is the sum over `k` of `X (p, k) * W (k, q)`, plus `B (0, q)`. Three facts about it:

  * a kernel body spells the layer as a matrix product accumulated into zero, of the operands narrowed to a shorter
    float format (the identity on extended reals), plus the bias row spread down the rows: that is the layer, entry by
    entry;
  * the input matrix is often several matrices set side by side; three pieces set side by side read, at an entry, the
    piece whose columns hold the entry's column;
  * row `off + r` of the layer over whole matrices is row `r` of the layer over the blocks of rows starting at `off`:
    a layer is computed row by row, so a block of its rows needs only the same block of rows of its input. For an
    input made of pieces set side by side, the pieces' blocks set side by side are the block of the whole.
-/
import Mathlib.Algebra.BigOperators.Fin
import Idealize.ShloMosaic.Lib.Pipeline.Value
import Idealize.ShloMosaic.Lib.ValueIdx
import Idealize.ShloMosaic.PureOps.Ideal.Laws
import proofs.«162557_j84859963834407_1_alg».proof.Proof.LibConcatCols
import proofs.«162557_j84859963834407_1_alg».proof.Proof.LibTwoBlocks

noncomputable section

open scoped BigOperators

namespace Cert.Lib.DenseLayer

open Idealize.ShloMosaic Idealize.ShloMosaic.ValueIdx Cert.Lib.ConcatCols Cert.Lib.TwoBlocks

/-! ## The layer -/

/-- Entry `(p, q)` of the dense layer of `X` (`n × K`), `W` (`K × C`) and the bias row `B` (`1 × C`). -/
def denseAt {n K C : ℕ} (X : (⟨2, ![n, K]⟩ : Shape).Idx → EReal) (W : (⟨2, ![K, C]⟩ : Shape).Idx → EReal)
    (B : (⟨2, ![1, C]⟩ : Shape).Idx → EReal) (p : Fin n) (q : Fin C) : EReal :=
  (∑ k : Fin K, X (ix2 p k) * W (ix2 k q)) + B (ix2 (0 : Fin 1) q)

/-- The layer depends on its input only through the entries of row `p`, and on the weights and the bias as
    functions. -/
theorem denseAt_congr {n n' K C : ℕ} (X : (⟨2, ![n, K]⟩ : Shape).Idx → EReal) (X' : (⟨2, ![n', K]⟩ : Shape).Idx → EReal)
    (W W' : (⟨2, ![K, C]⟩ : Shape).Idx → EReal) (B B' : (⟨2, ![1, C]⟩ : Shape).Idx → EReal) (p : Fin n) (p' : Fin n') (q : Fin C)
    (hX : ∀ k : Fin K, X (ix2 p k) = X' (ix2 p' k)) (hW : W = W') (hB : B = B') :
    denseAt X W B p q = denseAt X' W' B' p' q := by
  subst hW; subst hB
  unfold denseAt
  exact congrArg (· + B (ix2 (0 : Fin 1) q)) (Finset.sum_congr rfl fun k _ => by rw [hX k])

/-- A kernel body's spelling of the layer — the product, accumulated into zero, of the input and the weights, both
    narrowed to a shorter float format, plus the bias row spread down the `n` rows — is the layer, entry by entry. -/
theorem body_entry {n K C : ℕ} {ψ : FTy} (D : DotDims ⟨2, ![n, K]⟩ ⟨2, ![K, C]⟩ ⟨2, ![n, C]⟩) (hD : D = DotDims.plain n K C)
    (prec : Option ContractPrecision)
    (X : FVec Ideal ⟨2, ![n, K]⟩ .f32) (W : FVec Ideal ⟨2, ![K, C]⟩ .f32) (B : FVec Ideal ⟨2, ![1, C]⟩ .f32)
    (hlt : ψ.bits < FTy.f32.bits)
    (hW : (⟨2, ![K, C]⟩ : Shape).ShapeCasts ⟨2, ![K, C]⟩) (hB : (⟨2, ![1, C]⟩ : Shape).ShapeCasts ⟨2, ![1, C]⟩)
    (hbc : (⟨2, ![1, C]⟩ : Shape).Broadcasts ⟨2, ![n, C]⟩) (p : Fin n) (q : Fin C) :
    addf (matmul D prec (truncf ψ X hlt) (truncf ψ (shapeCast ⟨2, ![K, C]⟩ W hW) hlt) (constant ⟨2, ![n, C]⟩ .f32 0x00000000#32))
        (broadcastTo ⟨2, ![n, C]⟩ (shapeCast ⟨2, ![1, C]⟩ B hB) hbc) (ix2 p q)
      = denseAt X W B p q := by
  rw [addf_apply, shapeCast_self, shapeCast_self, plain_matmul_zero_apply D hD prec _ _ p q]
  unfold denseAt
  refine congrArg₂ (· + ·) rfl ?_
  refine broadcastTo_apply B hbc (ix2 p q) (ix2 (0 : Fin 1) q) fun a => ?_
  match a with
  | ⟨0, _⟩ => exact (if_pos rfl).symm
  | ⟨1, _⟩ =>
    show q.val = if C = 1 then 0 else q.val
    have hq := q.isLt
    split <;> omega

/-- A host matrix product of an `M × K` by a `K × N` matrix (any dimension numbers that contract the left operand's
    columns with the right operand's rows and batch nothing) reads, at `(p, q)`, the sum over the shared axis. -/
theorem plain_dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    Host.dotGeneral D prec A B (ix2 p q) = ∑ c : Fin K, A (ix2 p c) * B (ix2 c q) := by
  subst hD
  simp only [Host.dotGeneral]
  rw [Ideal.dotGeneral_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

/-- A host program's spelling of the layer — the host matrix product of the input and the weights plus an `n × C`
    array `Bn` that holds the bias row in every row — is the layer, entry by entry. -/
theorem host_entry {n K C : ℕ} (D : DotDims ⟨2, ![n, K]⟩ ⟨2, ![K, C]⟩ ⟨2, ![n, C]⟩) (hD : D = DotDims.plain n K C)
    (prec : Option ContractPrecision)
    (X : FVec Ideal ⟨2, ![n, K]⟩ .f32) (W : FVec Ideal ⟨2, ![K, C]⟩ .f32) (Bn : FVec Ideal ⟨2, ![n, C]⟩ .f32)
    (B : FVec Ideal ⟨2, ![1, C]⟩ .f32) (p : Fin n) (q : Fin C) (hB : Bn (ix2 p q) = B (ix2 (0 : Fin 1) q)) :
    addf (Host.dotGeneral D prec X W) Bn (ix2 p q) = denseAt X W B p q := by
  rw [addf_apply, plain_dotGeneral_apply D hD prec X W p q, hB]
  rfl

/-! ## Three matrices set side by side -/

variable {α : Type}

/-- A column of the first of three pieces. -/
theorem concat_cols3_first {a b₁ b₂ b₃ n : ℕ} (x₁ : (⟨2, ![a, b₁]⟩ : Shape).Idx → α) (x₂ : (⟨2, ![a, b₂]⟩ : Shape).Idx → α)
    (x₃ : (⟨2, ![a, b₃]⟩ : Shape).Idx → α)
    (h : Shape.Concatenates [⟨2, ![a, b₁]⟩, ⟨2, ![a, b₂]⟩, ⟨2, ![a, b₃]⟩] ⟨2, ![a, n]⟩ 1)
    (i : Fin a) (j : Fin n) (k : Fin b₁) (hk : k.val = j.val) :
    concatenate ⟨2, ![a, n]⟩ 1 [⟨⟨2, ![a, b₁]⟩, x₁⟩, ⟨⟨2, ![a, b₂]⟩, x₂⟩, ⟨⟨2, ![a, b₃]⟩, x₃⟩] h (ix2 i j) = x₁ (ix2 i k) :=
  concatenate_apply_piece (t := ⟨2, ![a, n]⟩) 1 [⟨⟨2, ![a, b₁]⟩, x₁⟩, ⟨⟨2, ![a, b₂]⟩, x₂⟩, ⟨⟨2, ![a, b₃]⟩, x₃⟩] h (ix2 i j) 0 (by show (0 : ℕ) < 3; omega) ⟨2, ![a, b₁]⟩ x₁ rfl rfl 0 rfl (ix2 i k)
    (fun b hb => by
      match b with
      | ⟨0, _⟩ => rfl
      | ⟨1, _⟩ => exact absurd rfl hb)
    (by show 0 + k.val = j.val; omega)

/-- A column of the second of three pieces. -/
theorem concat_cols3_second {a b₁ b₂ b₃ n : ℕ} (x₁ : (⟨2, ![a, b₁]⟩ : Shape).Idx → α) (x₂ : (⟨2, ![a, b₂]⟩ : Shape).Idx → α)
    (x₃ : (⟨2, ![a, b₃]⟩ : Shape).Idx → α)
    (h : Shape.Concatenates [⟨2, ![a, b₁]⟩, ⟨2, ![a, b₂]⟩, ⟨2, ![a, b₃]⟩] ⟨2, ![a, n]⟩ 1)
    (i : Fin a) (j : Fin n) (k : Fin b₂) (hk : b₁ + k.val = j.val) :
    concatenate ⟨2, ![a, n]⟩ 1 [⟨⟨2, ![a, b₁]⟩, x₁⟩, ⟨⟨2, ![a, b₂]⟩, x₂⟩, ⟨⟨2, ![a, b₃]⟩, x₃⟩] h (ix2 i j) = x₂ (ix2 i k) :=
  concatenate_apply_piece (t := ⟨2, ![a, n]⟩) 1 [⟨⟨2, ![a, b₁]⟩, x₁⟩, ⟨⟨2, ![a, b₂]⟩, x₂⟩, ⟨⟨2, ![a, b₃]⟩, x₃⟩] h (ix2 i j) 1 (by show (1 : ℕ) < 3; omega) ⟨2, ![a, b₂]⟩ x₂ rfl rfl b₁ (by simp) (ix2 i k)
    (fun b hb => by
      match b with
      | ⟨0, _⟩ => rfl
      | ⟨1, _⟩ => exact absurd rfl hb)
    (by show b₁ + k.val = j.val; exact hk)

/-- A column of the third of three pieces. -/
theorem concat_cols3_third {a b₁ b₂ b₃ n : ℕ} (x₁ : (⟨2, ![a, b₁]⟩ : Shape).Idx → α) (x₂ : (⟨2, ![a, b₂]⟩ : Shape).Idx → α)
    (x₃ : (⟨2, ![a, b₃]⟩ : Shape).Idx → α)
    (h : Shape.Concatenates [⟨2, ![a, b₁]⟩, ⟨2, ![a, b₂]⟩, ⟨2, ![a, b₃]⟩] ⟨2, ![a, n]⟩ 1)
    (i : Fin a) (j : Fin n) (k : Fin b₃) (hk : b₁ + b₂ + k.val = j.val) :
    concatenate ⟨2, ![a, n]⟩ 1 [⟨⟨2, ![a, b₁]⟩, x₁⟩, ⟨⟨2, ![a, b₂]⟩, x₂⟩, ⟨⟨2, ![a, b₃]⟩, x₃⟩] h (ix2 i j) = x₃ (ix2 i k) :=
  concatenate_apply_piece (t := ⟨2, ![a, n]⟩) 1 [⟨⟨2, ![a, b₁]⟩, x₁⟩, ⟨⟨2, ![a, b₂]⟩, x₂⟩, ⟨⟨2, ![a, b₃]⟩, x₃⟩] h (ix2 i j) 2 (by show (2 : ℕ) < 3; omega) ⟨2, ![a, b₃]⟩ x₃ rfl rfl (b₁ + b₂) (by simp) (ix2 i k)
    (fun b hb => by
      match b with
      | ⟨0, _⟩ => rfl
      | ⟨1, _⟩ => exact absurd rfl hb)
    (by show b₁ + b₂ + k.val = j.val; exact hk)

/-! ## Blocks of rows of matrices set side by side -/

/-- Two pieces: if each block piece holds the rows of its whole piece starting at `off`, the block pieces set side by
    side hold those rows of the whole pieces set side by side. -/
theorem concat2_rows_block {n N b₁ b₂ K : ℕ} (hK : b₁ + b₂ = K) (off : ℕ)
    (A : (⟨2, ![N, b₁]⟩ : Shape).Idx → α) (A' : (⟨2, ![N, b₂]⟩ : Shape).Idx → α)
    (Ab : (⟨2, ![n, b₁]⟩ : Shape).Idx → α) (Ab' : (⟨2, ![n, b₂]⟩ : Shape).Idx → α)
    (h : Shape.Concatenates [⟨2, ![N, b₁]⟩, ⟨2, ![N, b₂]⟩] ⟨2, ![N, K]⟩ 1)
    (hb : Shape.Concatenates [⟨2, ![n, b₁]⟩, ⟨2, ![n, b₂]⟩] ⟨2, ![n, K]⟩ 1)
    (r : Fin n) (R : Fin N)
    (hA : ∀ k : Fin b₁, Ab (ix2 r k) = A (ix2 R k)) (hA' : ∀ k : Fin b₂, Ab' (ix2 r k) = A' (ix2 R k)) (k : Fin K) :
    concatenate ⟨2, ![n, K]⟩ 1 [⟨⟨2, ![n, b₁]⟩, Ab⟩, ⟨⟨2, ![n, b₂]⟩, Ab'⟩] hb (ix2 r k)
      = concatenate ⟨2, ![N, K]⟩ 1 [⟨⟨2, ![N, b₁]⟩, A⟩, ⟨⟨2, ![N, b₂]⟩, A'⟩] h (ix2 R k) := by
  have hk := k.isLt
  by_cases h1 : k.val < b₁
  · rw [concat_cols_left Ab Ab' hb r k ⟨k.val, h1⟩ rfl, concat_cols_left A A' h R k ⟨k.val, h1⟩ rfl]
    exact hA _
  · have h2 : k.val - b₁ < b₂ := by omega
    rw [concat_cols_right Ab Ab' hb r k ⟨k.val - b₁, h2⟩ (by show b₁ + (k.val - b₁) = k.val; omega),
      concat_cols_right A A' h R k ⟨k.val - b₁, h2⟩ (by show b₁ + (k.val - b₁) = k.val; omega)]
    exact hA' _

/-- Three pieces: the same. -/
theorem concat3_rows_block {n N b₁ b₂ b₃ K : ℕ} (hK : b₁ + b₂ + b₃ = K) (off : ℕ)
    (A : (⟨2, ![N, b₁]⟩ : Shape).Idx → α) (A' : (⟨2, ![N, b₂]⟩ : Shape).Idx → α) (A'' : (⟨2, ![N, b₃]⟩ : Shape).Idx → α)
    (Ab : (⟨2, ![n, b₁]⟩ : Shape).Idx → α) (Ab' : (⟨2, ![n, b₂]⟩ : Shape).Idx → α) (Ab'' : (⟨2, ![n, b₃]⟩ : Shape).Idx → α)
    (h : Shape.Concatenates [⟨2, ![N, b₁]⟩, ⟨2, ![N, b₂]⟩, ⟨2, ![N, b₃]⟩] ⟨2, ![N, K]⟩ 1)
    (hb : Shape.Concatenates [⟨2, ![n, b₁]⟩, ⟨2, ![n, b₂]⟩, ⟨2, ![n, b₃]⟩] ⟨2, ![n, K]⟩ 1)
    (r : Fin n) (R : Fin N)
    (hA : ∀ k : Fin b₁, Ab (ix2 r k) = A (ix2 R k)) (hA' : ∀ k : Fin b₂, Ab' (ix2 r k) = A' (ix2 R k))
    (hA'' : ∀ k : Fin b₃, Ab'' (ix2 r k) = A'' (ix2 R k)) (k : Fin K) :
    concatenate ⟨2, ![n, K]⟩ 1 [⟨⟨2, ![n, b₁]⟩, Ab⟩, ⟨⟨2, ![n, b₂]⟩, Ab'⟩, ⟨⟨2, ![n, b₃]⟩, Ab''⟩] hb (ix2 r k)
      = concatenate ⟨2, ![N, K]⟩ 1 [⟨⟨2, ![N, b₁]⟩, A⟩, ⟨⟨2, ![N, b₂]⟩, A'⟩, ⟨⟨2, ![N, b₃]⟩, A''⟩] h (ix2 R k) := by
  have hk := k.isLt
  by_cases h1 : k.val < b₁
  · rw [concat_cols3_first Ab Ab' Ab'' hb r k ⟨k.val, h1⟩ rfl, concat_cols3_first A A' A'' h R k ⟨k.val, h1⟩ rfl]
    exact hA _
  · by_cases h2 : k.val < b₁ + b₂
    · have h3 : k.val - b₁ < b₂ := by omega
      rw [concat_cols3_second Ab Ab' Ab'' hb r k ⟨k.val - b₁, h3⟩ (by show b₁ + (k.val - b₁) = k.val; omega),
        concat_cols3_second A A' A'' h R k ⟨k.val - b₁, h3⟩ (by show b₁ + (k.val - b₁) = k.val; omega)]
      exact hA' _
    · have h3 : k.val - (b₁ + b₂) < b₃ := by omega
      rw [concat_cols3_third Ab Ab' Ab'' hb r k ⟨k.val - (b₁ + b₂), h3⟩ (by show b₁ + b₂ + (k.val - (b₁ + b₂)) = k.val; omega),
        concat_cols3_third A A' A'' h R k ⟨k.val - (b₁ + b₂), h3⟩ (by show b₁ + b₂ + (k.val - (b₁ + b₂)) = k.val; omega)]
      exact hA'' _

end Cert.Lib.DenseLayer

end
-- ==== Proof.LibGraphLayer.lean ====
/-
  One graph-convolution layer read at an entry, for any sizes.

  The layer takes the aggregated neighbour features `A` and the node features `H` (both `n × K`), two `K × C` weight
  matrices `Wr` and `Wo`, and a bias `β` with one entry per output column. Its entry `(p, q)` is

      max ( (∑ k, A (p, k) * Wr (k, q)) + (∑ k, H (p, k) * Wo (k, q)) + β q , 0 ).

  * The entry depends on `A` and `H` only through their row `p`, so the rows of the layer over arrays with extra rows
    appended are the rows of the layer over the arrays themselves.
  * A kernel body spells the layer as two matrix products accumulated into zero, of operands narrowed to a shorter float
    format (the identity on extended reals), added, plus a bias row spread down the rows, then the maximum with zero.
  * A host program spells it as a host matrix product plus an array holding the bias in every row, plus the second host
    product, then the maximum with an array of zeros.
  The two spellings add the same three terms in a different order; addition of extended reals is commutative and
  associative, so both are the entry above, with no finiteness assumption.
-/
import Mathlib.Algebra.BigOperators.Fin
import Idealize.ShloMosaic.Lib.Pipeline.Value
import Idealize.ShloMosaic.Lib.ValueIdx
import Idealize.ShloMosaic.PureOps.Ideal.Laws
import proofs.«162557_j84859963834407_1_alg».proof.Proof.LibTwoBlocks
import proofs.«162557_j84859963834407_1_alg».proof.Proof.LibDenseLayer

noncomputable section

open scoped BigOperators

namespace Cert.Lib.GraphLayer

open Idealize.ShloMosaic Idealize.ShloMosaic.ValueIdx Cert.Lib.TwoBlocks Cert.Lib.DenseLayer

/-- Entry `(p, q)` of the layer of `A`, `H` (`n × K`), the weights `Wr`, `Wo` (`K × C`) and the bias `β`. -/
def layerAt {n K C : ℕ} (A H : (⟨2, ![n, K]⟩ : Shape).Idx → EReal) (Wr Wo : (⟨2, ![K, C]⟩ : Shape).Idx → EReal)
    (β : Fin C → EReal) (p : Fin n) (q : Fin C) : EReal :=
  max ((∑ k : Fin K, A (ix2 p k) * Wr (ix2 k q)) + (∑ k : Fin K, H (ix2 p k) * Wo (ix2 k q)) + β q) 0

/-- The layer as an array: its entry at an index is the layer's entry at the index's row and column. -/
def layerOf {n K C : ℕ} (A H : (⟨2, ![n, K]⟩ : Shape).Idx → EReal) (Wr Wo : (⟨2, ![K, C]⟩ : Shape).Idx → EReal)
    (β : Fin C → EReal) : (⟨2, ![n, C]⟩ : Shape).Idx → EReal := fun i => layerAt A H Wr Wo β (i 0) (i 1)

theorem layerOf_apply {n K C : ℕ} (A H : (⟨2, ![n, K]⟩ : Shape).Idx → EReal) (Wr Wo : (⟨2, ![K, C]⟩ : Shape).Idx → EReal)
    (β : Fin C → EReal) (p : Fin n) (q : Fin C) : layerOf A H Wr Wo β (ix2 p q) = layerAt A H Wr Wo β p q := rfl

/-- The entry depends on `A` and `H` through row `p` only, on the weights through column `q` only, and on the bias
    at `q` only. -/
theorem layerAt_congr {n n' K C : ℕ} (A H : (⟨2, ![n, K]⟩ : Shape).Idx → EReal) (A' H' : (⟨2, ![n', K]⟩ : Shape).Idx → EReal)
    (Wr Wo Wr' Wo' : (⟨2, ![K, C]⟩ : Shape).Idx → EReal) (β β' : Fin C → EReal) (p : Fin n) (p' : Fin n') (q : Fin C)
    (hA : ∀ k : Fin K, A (ix2 p k) = A' (ix2 p' k)) (hH : ∀ k : Fin K, H (ix2 p k) = H' (ix2 p' k))
    (hWr : ∀ k : Fin K, Wr (ix2 k q) = Wr' (ix2 k q)) (hWo : ∀ k : Fin K, Wo (ix2 k q) = Wo' (ix2 k q)) (hβ : β q = β' q) :
    layerAt A H Wr Wo β p q = layerAt A' H' Wr' Wo' β' p' q := by
  unfold layerAt
  have e1 : (∑ k : Fin K, A (ix2 p k) * Wr (ix2 k q)) = ∑ k : Fin K, A' (ix2 p' k) * Wr' (ix2 k q) :=
    Finset.sum_congr rfl fun k _ => by rw [hA k, hWr k]
  have e2 : (∑ k : Fin K, H (ix2 p k) * Wo (ix2 k q)) = ∑ k : Fin K, H' (ix2 p' k) * Wo' (ix2 k q) :=
    Finset.sum_congr rfl fun k _ => by rw [hH k, hWo k]
  rw [e1, e2, hβ]

/-- A kernel body's spelling of the layer on a block of `n` rows: the two products into zero of the narrowed operands,
    added, plus the bias row `B` spread down the rows, then the maximum with zero. -/
theorem body_entry {n K C : ℕ} {ψ : FTy} (D : DotDims ⟨2, ![n, K]⟩ ⟨2, ![K, C]⟩ ⟨2, ![n, C]⟩) (hD : D = DotDims.plain n K C)
    (prec : Option ContractPrecision)
    (A H : FVec Ideal ⟨2, ![n, K]⟩ .f32) (Wr Wo : FVec Ideal ⟨2, ![K, C]⟩ .f32) (B : FVec Ideal ⟨2, ![1, C]⟩ .f32)
    (hlt : ψ.bits < FTy.f32.bits)
    (hX : (⟨2, ![n, K]⟩ : Shape).ShapeCasts ⟨2, ![n, K]⟩) (hW : (⟨2, ![K, C]⟩ : Shape).ShapeCasts ⟨2, ![K, C]⟩)
    (hB : (⟨2, ![1, C]⟩ : Shape).ShapeCasts ⟨2, ![1, C]⟩) (hbc : (⟨2, ![1, C]⟩ : Shape).Broadcasts ⟨2, ![n, C]⟩)
    (p : Fin n) (q : Fin C) :
    maximumf
        (addf
          (addf
            (matmul D prec (truncf ψ (shapeCast ⟨2, ![n, K]⟩ A hX) hlt) (truncf ψ (shapeCast ⟨2, ![K, C]⟩ Wr hW) hlt)
              (constant ⟨2, ![n, C]⟩ .f32 0x00000000#32))
            (matmul D prec (truncf ψ (shapeCast ⟨2, ![n, K]⟩ H hX) hlt) (truncf ψ (shapeCast ⟨2, ![K, C]⟩ Wo hW) hlt)
              (constant ⟨2, ![n, C]⟩ .f32 0x00000000#32)))
          (broadcastTo ⟨2, ![n, C]⟩ (shapeCast ⟨2, ![1, C]⟩ (shapeCast ⟨2, ![1, C]⟩ B hB) hB) hbc))
        (broadcast ⟨2, ![n, C]⟩ (Scalar.ofBits (F := Ideal) .f32 0x00000000#32) : FVec Ideal ⟨2, ![n, C]⟩ .f32) (ix2 p q)
      = layerAt A H Wr Wo (fun q => B (ix2 (0 : Fin 1) q)) p q := by
  rw [maximumf_apply, addf_apply, addf_apply, shapeCast_self, shapeCast_self, shapeCast_self, shapeCast_self, shapeCast_self,
    shapeCast_self, plain_matmul_zero_apply D hD prec _ _ p q, plain_matmul_zero_apply D hD prec _ _ p q]
  unfold layerAt
  refine congrArg₂ max (congrArg₂ (· + ·) rfl ?_) Ideal.ofBits_zero_f32
  refine broadcastTo_apply B hbc (ix2 p q) (ix2 (0 : Fin 1) q) fun a => ?_
  match a with
  | ⟨0, _⟩ => exact (if_pos rfl).symm
  | ⟨1, _⟩ =>
    show q.val = if C = 1 then 0 else q.val
    have hq := q.isLt
    split <;> omega

/-- A host program's spelling of the layer: the host product of `A` and `Wr`, plus an array `Bn` holding the bias in
    every row, plus the host product of `H` and `Wo`, then the maximum with an array `Z` of zeros. -/
theorem host_entry {n K C : ℕ} (D : DotDims ⟨2, ![n, K]⟩ ⟨2, ![K, C]⟩ ⟨2, ![n, C]⟩) (hD : D = DotDims.plain n K C)
    (prec : Option ContractPrecision)
    (A H : FVec Ideal ⟨2, ![n, K]⟩ .f32) (Wr Wo : FVec Ideal ⟨2, ![K, C]⟩ .f32) (Bn Z : FVec Ideal ⟨2, ![n, C]⟩ .f32)
    (β : Fin C → EReal) (p : Fin n) (q : Fin C) (hB : Bn (ix2 p q) = β q) (hZ : Z (ix2 p q) = 0) :
    maximumf (addf (addf (Host.dotGeneral D prec A Wr) Bn) (Host.dotGeneral D prec H Wo)) Z (ix2 p q)
      = layerAt A H Wr Wo β p q := by
  rw [maximumf_apply, addf_apply, addf_apply, plain_dotGeneral_apply D hD prec A Wr p q,
    plain_dotGeneral_apply D hD prec H Wo p q, hB, hZ]
  unfold layerAt
  rw [add_right_comm]

end Cert.Lib.GraphLayer

end
-- ==== Proof.Region0.lean ====
/-
  What the output array of the first pallas_call ends holding, as one function of the arrays the call is entered with.

  The call tiles its 20480-row inputs and output into 8 blocks of 2560 rows; at grid point `t` the body reads rows
  `2560·t … 2560·t + 2559` of the aggregated features and of the node features, the two whole `256 × 200` weight matrices and the
  whole `1 × 200` bias row, and writes the same rows of the output. The body's value at an entry of its block is the layer's
  entry (two products into zero, added, plus the bias row, maximum with zero), and a layer's row depends only on the same
  row of its inputs: so point `t`'s block IS block `t` of the layer of the whole arrays, the 8 blocks cover the 20480 rows, and
  the array after the call is the layer of the whole arrays, entry by entry.
-/
import proofs.«162557_j84859963834407_1_alg».proof.Proof.Gen.KernelIdeal.Frame
import proofs.«162557_j84859963834407_1_alg».proof.Proof.LibGraphLayer
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem Idealize.ShloMosaic.Pipeline Cert.Lib.GraphLayer

variable (V : (c : Dev nD) → (b : Ref sig .tc) → Buf (Elt Ideal) ((c : Thread nD τ).loc b))

theorem zero_offsets : (![0, 0] : Fin 2 → Nat) = fun _ => 0 := funext fun a => by fin_cases a <;> rfl

/-- The layer of the arrays the call is entered with: aggregated features, node features, the two transposed weight
    matrices and the bias row. -/
def layerArr (c : Dev nD) : S20480x200.Idx → EReal := fun i =>
  layerAt (V c main_v14 : S20480x256.Idx → EReal) (V c main_v15 : S20480x256.Idx → EReal) (V c main_v16 : S256x200.Idx → EReal)
    (V c main_v17 : S256x200.Idx → EReal) (fun q => (V c main_v18 : S1x200.Idx → EReal) (ix2 (0 : Fin 1) q)) (i 0) (i 1)

/-- The body's stored value at entry `(p, q)` of its block is the layer's entry of the blocks it loaded. -/
theorem pay_at (x0 x1 : Vec Ideal S2560x256 .f32) (x2 x4 : Vec Ideal S256x200 .f32) (x3 : Vec Ideal S1x200 .f32)
    (p : Fin 2560) (q : Fin 200) :
    k0_pay1 (F := Ideal) x0 x1 x2 x4 x3 (ix2 p q) = layerAt x0 x1 x2 x4 (fun q => x3 (ix2 (0 : Fin 1) q)) p q := by
  unfold k0_pay1
  exact body_entry dot_S2560x256_S256x200_S2560x200_1_0_0_1_n_n rfl none x0 x1 x2 x4 x3 bitsLt_bf16_f32 _ _ _ _ p q

/-- The printed index maps, decided once over the grid: the two row-tiled inputs move with the output's blocks, the
    weights and the bias stay at block `(0, 0)`, and the output's column block is `0`. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 7 :=
  (by decide +kernel : ∀ t : Fin grid0.N, _)

/-- Every row block of the output is some point's. -/
theorem idx_onto : ∀ q0 : Fin 8, ∃ t : Fin cfg0.N, win0_5.index t (0 : Fin 2) = q0.val :=
  (by decide +kernel : ∀ q0 : Fin 8, ∃ t : Fin grid0.N, win0_5.index t (0 : Fin 2) = q0.val)

/-- What point `t` writes back is block `t` of the layer of the whole arrays. -/
theorem flushed_eq (c : Dev nD) (t : Fin cfg0.N) :
    (dat0 (F := Ideal) V c).flushed 5 t = ((cfg0.win 5).blk t).view.read (Elt Ideal) (layerArr V c) := by
  show (cfg0.win 5).cut (grid0.coords t) ((dat0 (F := Ideal) V c).after 5 t) = _
  rw [after0_5]
  unfold out0_5
  rw [View.canon_unit_zero zero_offsets]
  simp only [View.ld_unit_zero (S := S2560x256) zero_offsets, View.ld_unit_zero (S := S256x200) zero_offsets,
    View.ld_unit_zero (S := S1x200) zero_offsets]
  obtain ⟨e0, e1, e2, e3, e4, e5, e6, e7, e8, e9, e10, e11⟩ := idx_facts t
  funext j
  obtain ⟨p, q, rfl⟩ : ∃ (p : Fin 2560) (q : Fin 200), j = ix2 p q := ⟨j 0, j 1, eq_ix2 j⟩
  refine (pay_at (iblk0 V c 0 t) (iblk0 V c 1 t) (iblk0 V c 2 t) (iblk0 V c 4 t) (iblk0 V c 3 t) p q).trans ?_
  show _ = layerAt (V c main_v14 : S20480x256.Idx → EReal) (V c main_v15 : S20480x256.Idx → EReal) (V c main_v16 : S256x200.Idx → EReal)
    (V c main_v17 : S256x200.Idx → EReal) (fun q => (V c main_v18 : S1x200.Idx → EReal) (ix2 (0 : Fin 1) q))
    ((((cfg0.win 5).blk t).view.emb (ix2 p q)) 0) ((((cfg0.win 5).blk t).view.emb (ix2 p q)) 1)
  have hq : ((((cfg0.win 5).blk t).view.emb (ix2 p q)) 1 : Fin 200) = q := Fin.ext (by
    show win0_5.index t (1 : Fin 2) * 200 + 1 * q.val = q.val
    omega)
  rw [hq]
  refine layerAt_congr _ _ _ _ _ _ _ _ _ _ p _ q (fun k => ?_) (fun k => ?_) (fun k => ?_) (fun k => ?_) ?_
  · show (V c main_v14 : S20480x256.Idx → EReal) (((cfg0.win 0).blk t).view.emb (ix2 p k)) = (V c main_v14 : S20480x256.Idx → EReal) (ix2 _ k)
    refine congrArg _ (funext fun a => Fin.ext ?_)
    match a with
    | ⟨0, _⟩ => show win0_0.index t (0 : Fin 2) * 2560 + 1 * p.val = win0_5.index t (0 : Fin 2) * 2560 + 1 * p.val; omega
    | ⟨1, _⟩ => show win0_0.index t (1 : Fin 2) * 256 + 1 * k.val = k.val; omega
  · show (V c main_v15 : S20480x256.Idx → EReal) (((cfg0.win 1).blk t).view.emb (ix2 p k)) = (V c main_v15 : S20480x256.Idx → EReal) (ix2 _ k)
    refine congrArg _ (funext fun a => Fin.ext ?_)
    match a with
    | ⟨0, _⟩ => show win0_1.index t (0 : Fin 2) * 2560 + 1 * p.val = win0_5.index t (0 : Fin 2) * 2560 + 1 * p.val; omega
    | ⟨1, _⟩ => show win0_1.index t (1 : Fin 2) * 256 + 1 * k.val = k.val; omega
  · show (V c main_v16 : S256x200.Idx → EReal) (((cfg0.win 2).blk t).view.emb (ix2 k q)) = (V c main_v16 : S256x200.Idx → EReal) (ix2 k q)
    refine congrArg _ (funext fun a => Fin.ext ?_)
    match a with
    | ⟨0, _⟩ => show win0_2.index t (0 : Fin 2) * 256 + 1 * k.val = k.val; omega
    | ⟨1, _⟩ => show win0_2.index t (1 : Fin 2) * 200 + 1 * q.val = q.val; omega
  · show (V c main_v17 : S256x200.Idx → EReal) (((cfg0.win 4).blk t).view.emb (ix2 k q)) = (V c main_v17 : S256x200.Idx → EReal) (ix2 k q)
    refine congrArg _ (funext fun a => Fin.ext ?_)
    match a with
    | ⟨0, _⟩ => show win0_4.index t (0 : Fin 2) * 256 + 1 * k.val = k.val; omega
    | ⟨1, _⟩ => show win0_4.index t (1 : Fin 2) * 200 + 1 * q.val = q.val; omega
  · show (V c main_v18 : S1x200.Idx → EReal) (((cfg0.win 3).blk t).view.emb (ix2 (0 : Fin 1) q)) = (V c main_v18 : S1x200.Idx → EReal) (ix2 (0 : Fin 1) q)
    refine congrArg _ (funext fun a => Fin.ext ?_)
    match a with
    | ⟨0, _⟩ => show win0_3.index t (0 : Fin 2) * 1 + 1 * 0 = 0; omega
    | ⟨1, _⟩ => show win0_3.index t (1 : Fin 2) * 200 + 1 * q.val = q.val; omega

/-- An index of the output array is in point `t`'s block iff each coordinate is in the block's range on its axis. -/
theorem mem_blk (t : Fin cfg0.N) (i : S20480x200.Idx) :
    i ∈ ((cfg0.win 5).blk t).view.set ↔ ∀ a : Fin 2, win0_5.index t a * S2560x200.size a ≤ (i a).val ∧ (i a).val < win0_5.index t a * S2560x200.size a + S2560x200.size a := by
  show i ∈ ((View.whole main_v19).slice (win0_5.rect t)).set ↔ _
  rw [View.set_slice_whole, Rect.mem_set_unit]
  exact Iff.rfl

/-- The 8 row blocks cover the array: row `r` is in the block of the point whose row block is `r / 2560`. -/
theorem cover (i : S20480x200.Idx) : ∃ t : Fin cfg0.N, (cfg0.win 5).flush t = true ∧ i ∈ ((cfg0.win 5).blk t).view.set := by
  have hi0 : (i 0).val < 20480 := (i 0).isLt
  have hi1 : (i 1).val < 200 := (i 1).isLt
  obtain ⟨t, ht⟩ := idx_onto ⟨(i 0).val / 2560, by omega⟩
  have q0 : win0_5.index t (0 : Fin 2) = (i 0).val / 2560 := ht
  obtain ⟨e0, e1, e2, e3, e4, e5, e6, e7, e8, e9, e10, e11⟩ := idx_facts t
  refine ⟨t, flush0_5 t, ?_⟩
  rw [mem_blk]
  intro a
  match a with
  | ⟨0, _⟩ => show win0_5.index t (0 : Fin 2) * 2560 ≤ (i 0).val ∧ (i 0).val < win0_5.index t (0 : Fin 2) * 2560 + 2560; omega
  | ⟨1, _⟩ => show win0_5.index t (1 : Fin 2) * 200 ≤ (i 1).val ∧ (i 1).val < win0_5.index t (1 : Fin 2) * 200 + 200; omega

/-- The output array after the call is the layer of the arrays the call was entered with. -/
theorem arr_eq (c : Dev nD) : (dat0 (F := Ideal) V c).arrAt 5 cfg0.N = layerArr V c :=
  (dat0 (F := Ideal) V c).arrAt_eq_of_cover 5 (layerArr V c) (fun t _ => flushed_eq V c t) (cover)

end Cert.KernelIdeal.Region0

end
-- ==== Proof.Region1.lean ====
/-
  What the output array of the second pallas_call ends holding, as one function of the arrays the call is entered with.

  The call tiles its 20480-row inputs and output into 8 blocks of 2560 rows; at grid point `t` the body reads rows
  `2560·t … 2560·t + 2559` of the aggregated features and of the node features, the two whole `200 × 100` weight matrices and the
  whole `1 × 100` bias row, and writes the same rows of the output. The body's value at an entry of its block is the layer's
  entry (two products into zero, added, plus the bias row, maximum with zero), and a layer's row depends only on the same
  row of its inputs: so point `t`'s block IS block `t` of the layer of the whole arrays, the 8 blocks cover the 20480 rows, and
  the array after the call is the layer of the whole arrays, entry by entry.
-/
import proofs.«162557_j84859963834407_1_alg».proof.Proof.Gen.KernelIdeal.Frame
import proofs.«162557_j84859963834407_1_alg».proof.Proof.LibGraphLayer
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem Idealize.ShloMosaic.Pipeline Cert.Lib.GraphLayer

variable (V : (c : Dev nD) → (b : Ref sig .tc) → Buf (Elt Ideal) ((c : Thread nD τ).loc b))

theorem zero_offsets : (![0, 0] : Fin 2 → Nat) = fun _ => 0 := funext fun a => by fin_cases a <;> rfl

/-- The layer of the arrays the call is entered with: aggregated features, node features, the two transposed weight
    matrices and the bias row. -/
def layerArr (c : Dev nD) : S20480x100.Idx → EReal := fun i =>
  layerAt (V c main_v31 : S20480x200.Idx → EReal) (V c main_v32 : S20480x200.Idx → EReal) (V c main_v33 : S200x100.Idx → EReal)
    (V c main_v34 : S200x100.Idx → EReal) (fun q => (V c main_v35 : S1x100.Idx → EReal) (ix2 (0 : Fin 1) q)) (i 0) (i 1)

/-- The body's stored value at entry `(p, q)` of its block is the layer's entry of the blocks it loaded. -/
theorem pay_at (x0 x1 : Vec Ideal S2560x200 .f32) (x2 x4 : Vec Ideal S200x100 .f32) (x3 : Vec Ideal S1x100 .f32)
    (p : Fin 2560) (q : Fin 100) :
    k1_pay1 (F := Ideal) x0 x1 x2 x4 x3 (ix2 p q) = layerAt x0 x1 x2 x4 (fun q => x3 (ix2 (0 : Fin 1) q)) p q := by
  unfold k1_pay1
  exact body_entry dot_S2560x200_S200x100_S2560x100_1_0_0_1_n_n rfl none x0 x1 x2 x4 x3 bitsLt_bf16_f32 _ _ _ _ p q

/-- The printed index maps, decided once over the grid: the two row-tiled inputs move with the output's blocks, the
    weights and the bias stay at block `(0, 0)`, and the output's column block is `0`. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 7 :=
  (by decide +kernel : ∀ t : Fin grid1.N, _)

/-- Every row block of the output is some point's. -/
theorem idx_onto : ∀ q0 : Fin 8, ∃ t : Fin cfg1.N, win1_5.index t (0 : Fin 2) = q0.val :=
  (by decide +kernel : ∀ q0 : Fin 8, ∃ t : Fin grid1.N, win1_5.index t (0 : Fin 2) = q0.val)

/-- What point `t` writes back is block `t` of the layer of the whole arrays. -/
theorem flushed_eq (c : Dev nD) (t : Fin cfg1.N) :
    (dat1 (F := Ideal) V c).flushed 5 t = ((cfg1.win 5).blk t).view.read (Elt Ideal) (layerArr V c) := by
  show (cfg1.win 5).cut (grid1.coords t) ((dat1 (F := Ideal) V c).after 5 t) = _
  rw [after1_5]
  unfold out1_5
  rw [View.canon_unit_zero zero_offsets]
  simp only [View.ld_unit_zero (S := S2560x200) zero_offsets, View.ld_unit_zero (S := S200x100) zero_offsets,
    View.ld_unit_zero (S := S1x100) zero_offsets]
  obtain ⟨e0, e1, e2, e3, e4, e5, e6, e7, e8, e9, e10, e11⟩ := idx_facts t
  funext j
  obtain ⟨p, q, rfl⟩ : ∃ (p : Fin 2560) (q : Fin 100), j = ix2 p q := ⟨j 0, j 1, eq_ix2 j⟩
  refine (pay_at (iblk1 V c 0 t) (iblk1 V c 1 t) (iblk1 V c 2 t) (iblk1 V c 4 t) (iblk1 V c 3 t) p q).trans ?_
  show _ = layerAt (V c main_v31 : S20480x200.Idx → EReal) (V c main_v32 : S20480x200.Idx → EReal) (V c main_v33 : S200x100.Idx → EReal)
    (V c main_v34 : S200x100.Idx → EReal) (fun q => (V c main_v35 : S1x100.Idx → EReal) (ix2 (0 : Fin 1) q))
    ((((cfg1.win 5).blk t).view.emb (ix2 p q)) 0) ((((cfg1.win 5).blk t).view.emb (ix2 p q)) 1)
  have hq : ((((cfg1.win 5).blk t).view.emb (ix2 p q)) 1 : Fin 100) = q := Fin.ext (by
    show win1_5.index t (1 : Fin 2) * 100 + 1 * q.val = q.val
    omega)
  rw [hq]
  refine layerAt_congr _ _ _ _ _ _ _ _ _ _ p _ q (fun k => ?_) (fun k => ?_) (fun k => ?_) (fun k => ?_) ?_
  · show (V c main_v31 : S20480x200.Idx → EReal) (((cfg1.win 0).blk t).view.emb (ix2 p k)) = (V c main_v31 : S20480x200.Idx → EReal) (ix2 _ k)
    refine congrArg _ (funext fun a => Fin.ext ?_)
    match a with
    | ⟨0, _⟩ => show win1_0.index t (0 : Fin 2) * 2560 + 1 * p.val = win1_5.index t (0 : Fin 2) * 2560 + 1 * p.val; omega
    | ⟨1, _⟩ => show win1_0.index t (1 : Fin 2) * 200 + 1 * k.val = k.val; omega
  · show (V c main_v32 : S20480x200.Idx → EReal) (((cfg1.win 1).blk t).view.emb (ix2 p k)) = (V c main_v32 : S20480x200.Idx → EReal) (ix2 _ k)
    refine congrArg _ (funext fun a => Fin.ext ?_)
    match a with
    | ⟨0, _⟩ => show win1_1.index t (0 : Fin 2) * 2560 + 1 * p.val = win1_5.index t (0 : Fin 2) * 2560 + 1 * p.val; omega
    | ⟨1, _⟩ => show win1_1.index t (1 : Fin 2) * 200 + 1 * k.val = k.val; omega
  · show (V c main_v33 : S200x100.Idx → EReal) (((cfg1.win 2).blk t).view.emb (ix2 k q)) = (V c main_v33 : S200x100.Idx → EReal) (ix2 k q)
    refine congrArg _ (funext fun a => Fin.ext ?_)
    match a with
    | ⟨0, _⟩ => show win1_2.index t (0 : Fin 2) * 200 + 1 * k.val = k.val; omega
    | ⟨1, _⟩ => show win1_2.index t (1 : Fin 2) * 100 + 1 * q.val = q.val; omega
  · show (V c main_v34 : S200x100.Idx → EReal) (((cfg1.win 4).blk t).view.emb (ix2 k q)) = (V c main_v34 : S200x100.Idx → EReal) (ix2 k q)
    refine congrArg _ (funext fun a => Fin.ext ?_)
    match a with
    | ⟨0, _⟩ => show win1_4.index t (0 : Fin 2) * 200 + 1 * k.val = k.val; omega
    | ⟨1, _⟩ => show win1_4.index t (1 : Fin 2) * 100 + 1 * q.val = q.val; omega
  · show (V c main_v35 : S1x100.Idx → EReal) (((cfg1.win 3).blk t).view.emb (ix2 (0 : Fin 1) q)) = (V c main_v35 : S1x100.Idx → EReal) (ix2 (0 : Fin 1) q)
    refine congrArg _ (funext fun a => Fin.ext ?_)
    match a with
    | ⟨0, _⟩ => show win1_3.index t (0 : Fin 2) * 1 + 1 * 0 = 0; omega
    | ⟨1, _⟩ => show win1_3.index t (1 : Fin 2) * 100 + 1 * q.val = q.val; omega

/-- An index of the output array is in point `t`'s block iff each coordinate is in the block's range on its axis. -/
theorem mem_blk (t : Fin cfg1.N) (i : S20480x100.Idx) :
    i ∈ ((cfg1.win 5).blk t).view.set ↔ ∀ a : Fin 2, win1_5.index t a * S2560x100.size a ≤ (i a).val ∧ (i a).val < win1_5.index t a * S2560x100.size a + S2560x100.size a := by
  show i ∈ ((View.whole main_v36).slice (win1_5.rect t)).set ↔ _
  rw [View.set_slice_whole, Rect.mem_set_unit]
  exact Iff.rfl

/-- The 8 row blocks cover the array: row `r` is in the block of the point whose row block is `r / 2560`. -/
theorem cover (i : S20480x100.Idx) : ∃ t : Fin cfg1.N, (cfg1.win 5).flush t = true ∧ i ∈ ((cfg1.win 5).blk t).view.set := by
  have hi0 : (i 0).val < 20480 := (i 0).isLt
  have hi1 : (i 1).val < 100 := (i 1).isLt
  obtain ⟨t, ht⟩ := idx_onto ⟨(i 0).val / 2560, by omega⟩
  have q0 : win1_5.index t (0 : Fin 2) = (i 0).val / 2560 := ht
  obtain ⟨e0, e1, e2, e3, e4, e5, e6, e7, e8, e9, e10, e11⟩ := idx_facts t
  refine ⟨t, flush1_5 t, ?_⟩
  rw [mem_blk]
  intro a
  match a with
  | ⟨0, _⟩ => show win1_5.index t (0 : Fin 2) * 2560 ≤ (i 0).val ∧ (i 0).val < win1_5.index t (0 : Fin 2) * 2560 + 2560; omega
  | ⟨1, _⟩ => show win1_5.index t (1 : Fin 2) * 100 ≤ (i 1).val ∧ (i 1).val < win1_5.index t (1 : Fin 2) * 100 + 100; omega

/-- The output array after the call is the layer of the arrays the call was entered with. -/
theorem arr_eq (c : Dev nD) : (dat1 (F := Ideal) V c).arrAt 5 cfg1.N = layerArr V c :=
  (dat1 (F := Ideal) V c).arrAt_eq_of_cover 5 (layerArr V c) (fun t _ => flushed_eq V c t) (cover)

end Cert.KernelIdeal.Region1

end
-- ==== Proof.Region2.lean ====
/-
  What the output array of the third pallas_call ends holding, as one function of the arrays the call is entered with.

  The call tiles its 20480-row inputs and output into 8 blocks of 2560 rows; at grid point `t` the body reads rows
  `2560·t … 2560·t + 2559` of the aggregated features and of the node features, the two whole `100 × 2` weight matrices and the
  whole `1 × 2` bias row, and writes the same rows of the output. The body's value at an entry of its block is the layer's
  entry (two products into zero, added, plus the bias row, maximum with zero), and a layer's row depends only on the same
  row of its inputs: so point `t`'s block IS block `t` of the layer of the whole arrays, the 8 blocks cover the 20480 rows, and
  the array after the call is the layer of the whole arrays, entry by entry.
-/
import proofs.«162557_j84859963834407_1_alg».proof.Proof.Gen.KernelIdeal.Frame
import proofs.«162557_j84859963834407_1_alg».proof.Proof.LibGraphLayer
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem Idealize.ShloMosaic.Pipeline Cert.Lib.GraphLayer

variable (V : (c : Dev nD) → (b : Ref sig .tc) → Buf (Elt Ideal) ((c : Thread nD τ).loc b))

theorem zero_offsets : (![0, 0] : Fin 2 → Nat) = fun _ => 0 := funext fun a => by fin_cases a <;> rfl

/-- The layer of the arrays the call is entered with: aggregated features, node features, the two transposed weight
    matrices and the bias row. -/
def layerArr (c : Dev nD) : S20480x2.Idx → EReal := fun i =>
  layerAt (V c main_v48 : S20480x100.Idx → EReal) (V c main_v49 : S20480x100.Idx → EReal) (V c main_v50 : S100x2.Idx → EReal)
    (V c main_v51 : S100x2.Idx → EReal) (fun q => (V c main_v52 : S1x2.Idx → EReal) (ix2 (0 : Fin 1) q)) (i 0) (i 1)

/-- The body's stored value at entry `(p, q)` of its block is the layer's entry of the blocks it loaded. -/
theorem pay_at (x0 x1 : Vec Ideal S2560x100 .f32) (x2 x4 : Vec Ideal S100x2 .f32) (x3 : Vec Ideal S1x2 .f32)
    (p : Fin 2560) (q : Fin 2) :
    k2_pay1 (F := Ideal) x0 x1 x2 x4 x3 (ix2 p q) = layerAt x0 x1 x2 x4 (fun q => x3 (ix2 (0 : Fin 1) q)) p q := by
  unfold k2_pay1
  exact body_entry dot_S2560x100_S100x2_S2560x2_1_0_0_1_n_n rfl none x0 x1 x2 x4 x3 bitsLt_bf16_f32 _ _ _ _ p q

/-- The printed index maps, decided once over the grid: the two row-tiled inputs move with the output's blocks, the
    weights and the bias stay at block `(0, 0)`, and the output's column block is `0`. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 7 :=
  (by decide +kernel : ∀ t : Fin grid2.N, _)

/-- Every row block of the output is some point's. -/
theorem idx_onto : ∀ q0 : Fin 8, ∃ t : Fin cfg2.N, win2_5.index t (0 : Fin 2) = q0.val :=
  (by decide +kernel : ∀ q0 : Fin 8, ∃ t : Fin grid2.N, win2_5.index t (0 : Fin 2) = q0.val)

/-- What point `t` writes back is block `t` of the layer of the whole arrays. -/
theorem flushed_eq (c : Dev nD) (t : Fin cfg2.N) :
    (dat2 (F := Ideal) V c).flushed 5 t = ((cfg2.win 5).blk t).view.read (Elt Ideal) (layerArr V c) := by
  show (cfg2.win 5).cut (grid2.coords t) ((dat2 (F := Ideal) V c).after 5 t) = _
  rw [after2_5]
  unfold out2_5
  rw [View.canon_unit_zero zero_offsets]
  simp only [View.ld_unit_zero (S := S2560x100) zero_offsets, View.ld_unit_zero (S := S100x2) zero_offsets,
    View.ld_unit_zero (S := S1x2) zero_offsets]
  obtain ⟨e0, e1, e2, e3, e4, e5, e6, e7, e8, e9, e10, e11⟩ := idx_facts t
  funext j
  obtain ⟨p, q, rfl⟩ : ∃ (p : Fin 2560) (q : Fin 2), j = ix2 p q := ⟨j 0, j 1, eq_ix2 j⟩
  refine (pay_at (iblk2 V c 0 t) (iblk2 V c 1 t) (iblk2 V c 2 t) (iblk2 V c 4 t) (iblk2 V c 3 t) p q).trans ?_
  show _ = layerAt (V c main_v48 : S20480x100.Idx → EReal) (V c main_v49 : S20480x100.Idx → EReal) (V c main_v50 : S100x2.Idx → EReal)
    (V c main_v51 : S100x2.Idx → EReal) (fun q => (V c main_v52 : S1x2.Idx → EReal) (ix2 (0 : Fin 1) q))
    ((((cfg2.win 5).blk t).view.emb (ix2 p q)) 0) ((((cfg2.win 5).blk t).view.emb (ix2 p q)) 1)
  have hq : ((((cfg2.win 5).blk t).view.emb (ix2 p q)) 1 : Fin 2) = q := Fin.ext (by
    show win2_5.index t (1 : Fin 2) * 2 + 1 * q.val = q.val
    omega)
  rw [hq]
  refine layerAt_congr _ _ _ _ _ _ _ _ _ _ p _ q (fun k => ?_) (fun k => ?_) (fun k => ?_) (fun k => ?_) ?_
  · show (V c main_v48 : S20480x100.Idx → EReal) (((cfg2.win 0).blk t).view.emb (ix2 p k)) = (V c main_v48 : S20480x100.Idx → EReal) (ix2 _ k)
    refine congrArg _ (funext fun a => Fin.ext ?_)
    match a with
    | ⟨0, _⟩ => show win2_0.index t (0 : Fin 2) * 2560 + 1 * p.val = win2_5.index t (0 : Fin 2) * 2560 + 1 * p.val; omega
    | ⟨1, _⟩ => show win2_0.index t (1 : Fin 2) * 100 + 1 * k.val = k.val; omega
  · show (V c main_v49 : S20480x100.Idx → EReal) (((cfg2.win 1).blk t).view.emb (ix2 p k)) = (V c main_v49 : S20480x100.Idx → EReal) (ix2 _ k)
    refine congrArg _ (funext fun a => Fin.ext ?_)
    match a with
    | ⟨0, _⟩ => show win2_1.index t (0 : Fin 2) * 2560 + 1 * p.val = win2_5.index t (0 : Fin 2) * 2560 + 1 * p.val; omega
    | ⟨1, _⟩ => show win2_1.index t (1 : Fin 2) * 100 + 1 * k.val = k.val; omega
  · show (V c main_v50 : S100x2.Idx → EReal) (((cfg2.win 2).blk t).view.emb (ix2 k q)) = (V c main_v50 : S100x2.Idx → EReal) (ix2 k q)
    refine congrArg _ (funext fun a => Fin.ext ?_)
    match a with
    | ⟨0, _⟩ => show win2_2.index t (0 : Fin 2) * 100 + 1 * k.val = k.val; omega
    | ⟨1, _⟩ => show win2_2.index t (1 : Fin 2) * 2 + 1 * q.val = q.val; omega
  · show (V c main_v51 : S100x2.Idx → EReal) (((cfg2.win 4).blk t).view.emb (ix2 k q)) = (V c main_v51 : S100x2.Idx → EReal) (ix2 k q)
    refine congrArg _ (funext fun a => Fin.ext ?_)
    match a with
    | ⟨0, _⟩ => show win2_4.index t (0 : Fin 2) * 100 + 1 * k.val = k.val; omega
    | ⟨1, _⟩ => show win2_4.index t (1 : Fin 2) * 2 + 1 * q.val = q.val; omega
  · show (V c main_v52 : S1x2.Idx → EReal) (((cfg2.win 3).blk t).view.emb (ix2 (0 : Fin 1) q)) = (V c main_v52 : S1x2.Idx → EReal) (ix2 (0 : Fin 1) q)
    refine congrArg _ (funext fun a => Fin.ext ?_)
    match a with
    | ⟨0, _⟩ => show win2_3.index t (0 : Fin 2) * 1 + 1 * 0 = 0; omega
    | ⟨1, _⟩ => show win2_3.index t (1 : Fin 2) * 2 + 1 * q.val = q.val; omega

/-- An index of the output array is in point `t`'s block iff each coordinate is in the block's range on its axis. -/
theorem mem_blk (t : Fin cfg2.N) (i : S20480x2.Idx) :
    i ∈ ((cfg2.win 5).blk t).view.set ↔ ∀ a : Fin 2, win2_5.index t a * S2560x2.size a ≤ (i a).val ∧ (i a).val < win2_5.index t a * S2560x2.size a + S2560x2.size a := by
  show i ∈ ((View.whole main_v53).slice (win2_5.rect t)).set ↔ _
  rw [View.set_slice_whole, Rect.mem_set_unit]
  exact Iff.rfl

/-- The 8 row blocks cover the array: row `r` is in the block of the point whose row block is `r / 2560`. -/
theorem cover (i : S20480x2.Idx) : ∃ t : Fin cfg2.N, (cfg2.win 5).flush t = true ∧ i ∈ ((cfg2.win 5).blk t).view.set := by
  have hi0 : (i 0).val < 20480 := (i 0).isLt
  have hi1 : (i 1).val < 2 := (i 1).isLt
  obtain ⟨t, ht⟩ := idx_onto ⟨(i 0).val / 2560, by omega⟩
  have q0 : win2_5.index t (0 : Fin 2) = (i 0).val / 2560 := ht
  obtain ⟨e0, e1, e2, e3, e4, e5, e6, e7, e8, e9, e10, e11⟩ := idx_facts t
  refine ⟨t, flush2_5 t, ?_⟩
  rw [mem_blk]
  intro a
  match a with
  | ⟨0, _⟩ => show win2_5.index t (0 : Fin 2) * 2560 ≤ (i 0).val ∧ (i 0).val < win2_5.index t (0 : Fin 2) * 2560 + 2560; omega
  | ⟨1, _⟩ => show win2_5.index t (1 : Fin 2) * 2 ≤ (i 1).val ∧ (i 1).val < win2_5.index t (1 : Fin 2) * 2 + 2; omega

/-- The output array after the call is the layer of the arrays the call was entered with. -/
theorem arr_eq (c : Dev nD) : (dat2 (F := Ideal) V c).arrAt 5 cfg2.N = layerArr V c :=
  (dat2 (F := Ideal) V c).arrAt_eq_of_cover 5 (layerArr V c) (fun t _ => flushed_eq V c t) (cover)

end Cert.KernelIdeal.Region2

end
-- ==== Proof.KernelHost.lean ====
/-
  The host side of the idealized kernel, read boundary by boundary.

  Between the pallas_calls the program runs host operations only. Before each call they (a) cut the edge list into its
  row of source nodes and its row of destination nodes, (b) shift negative source indices by the number of nodes,
  (c) gather the source rows of the current features and scatter-add them at the destination rows of an array of zeros
  (the aggregation over each node's neighbours), (d) append 480 rows holding a padding value to the aggregated and to the
  current features, (e) transpose the two weight matrices and turn the bias into a row. After the call they keep its
  first 20000 rows. This module names those host terms and states, for every buffer a later step reads, what it holds at
  the boundary where it is read. The gather and the scatter-add are never opened: they are carried as one function of
  the features and of the two index rows.
-/
import proofs.«162557_j84859963834407_1_alg».proof.Proof.Gen.KernelIdeal.Frame
import proofs.«162557_j84859963834407_1_alg».proof.Proof.Region0
import proofs.«162557_j84859963834407_1_alg».proof.Proof.Region1
import proofs.«162557_j84859963834407_1_alg».proof.Proof.Region2
import Idealize.ShloMosaic.Lib.StableHlo.Run
import Idealize.ShloMosaic.PureOps.Ideal.Laws
import Idealize.ShloMosaic.Lib.ValueIdx

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo

/-- Running two lists of host operations one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-! ## The host terms -/

abbrev Edges := (⟨S2x320000, .i32⟩ : BufTy).Contents (Elt Ideal)
abbrev Row := (⟨S320000, .i32⟩ : BufTy).Contents (Elt Ideal)
abbrev Col := (⟨S320000x1, .i32⟩ : BufTy).Contents (Elt Ideal)

/-- The edge list's row of source nodes. -/
def srcRow (e : Edges) : Row :=
  shapeCast S320000 (extractStridedSlice S1x320000 ![0, 0] e slices_S2x320000_S1x320000_0_0) shapeCasts_S1x320000_S320000
/-- The edge list's row of destination nodes. -/
def dstRow (e : Edges) : Row :=
  shapeCast S320000 (extractStridedSlice S1x320000 ![1, 0] e slices_S2x320000_S1x320000_1_0) shapeCasts_S1x320000_S320000
/-- The source nodes as a column of gather positions: a negative index is shifted by the number of nodes. -/
def srcCol (v : Row) : Col :=
  broadcastInDim S320000x1 ![0] bcast_S320000_S320000x1_0
    (select (cmpi .slt v (broadcastInDim S320000 ![] bcast_S_S320000 (constantI S_ 32 0#32)))
      (addi v (broadcastInDim S320000 ![] bcast_S_S320000 (constantI S_ 32 20000#32))) v)
/-- The destination nodes as a column of scatter positions. -/
def dstCol (v : Row) : Col := broadcastInDim S320000x1 ![0] bcast_S320000_S320000x1_0 v

/-- Each node's sum of its neighbours' 256 features. -/
def agg256 (x : FVec Ideal S20000x256 .f32) (s d : Row) : FVec Ideal S20000x256 .f32 :=
  Host.scatterAdd scatter_S20000x256_S320000x1_S320000x256_1_0_0_1
    (broadcastInDim S20000x256 ![] bcast_S_S20000x256 (constant S_ .f32 0x00000000#32)) (dstCol d)
    (Host.gather gather_S20000x256_S320000x1_S320000x256_1_0_n_n_0_1_1256 x (srcCol s))
/-- Each node's sum of its neighbours' 200 features. -/
def agg200 (x : FVec Ideal S20000x200 .f32) (s d : Row) : FVec Ideal S20000x200 .f32 :=
  Host.scatterAdd scatter_S20000x200_S320000x1_S320000x200_1_0_0_1
    (broadcastInDim S20000x200 ![] bcast_S_S20000x200 (constant S_ .f32 0x00000000#32)) (dstCol d)
    (Host.gather gather_S20000x200_S320000x1_S320000x200_1_0_n_n_0_1_1200 x (srcCol s))
/-- Each node's sum of its neighbours' 100 features. -/
def agg100 (x : FVec Ideal S20000x100 .f32) (s d : Row) : FVec Ideal S20000x100 .f32 :=
  Host.scatterAdd scatter_S20000x100_S320000x1_S320000x100_1_0_0_1
    (broadcastInDim S20000x100 ![] bcast_S_S20000x100 (constant S_ .f32 0x00000000#32)) (dstCol d)
    (Host.gather gather_S20000x100_S320000x1_S320000x100_1_0_n_n_0_1_1100 x (srcCol s))

/-- The value of the appended rows: the integer zero converted to a float. -/
def padValue : FVec Ideal S_ .f32 := sitofp .f32 (constantI S_ 32 0#32)

variable (m : (ℓ : Loc nD τ sig) → Buf (Elt Ideal) ℓ) (ρ : Dev nD → PrngReg)

/-- The launch contents of the arguments the proof reads, at their tensor types. -/
abbrev x0 (c : Dev nD) : FVec Ideal S20000x256 .f32 := m ((c.tc : Thread nD τ).loc main_arg0)
abbrev ed (c : Dev nD) : Edges := m ((c.tc : Thread nD τ).loc main_arg1)
abbrev w2 (c : Dev nD) : FVec Ideal S200x256 .f32 := m ((c.tc : Thread nD τ).loc main_arg2)
abbrev b3 (c : Dev nD) : FVec Ideal S200 .f32 := m ((c.tc : Thread nD τ).loc main_arg3)
abbrev w4 (c : Dev nD) : FVec Ideal S200x256 .f32 := m ((c.tc : Thread nD τ).loc main_arg4)
abbrev w5 (c : Dev nD) : FVec Ideal S100x200 .f32 := m ((c.tc : Thread nD τ).loc main_arg5)
abbrev b6 (c : Dev nD) : FVec Ideal S100 .f32 := m ((c.tc : Thread nD τ).loc main_arg6)
abbrev w7 (c : Dev nD) : FVec Ideal S100x200 .f32 := m ((c.tc : Thread nD τ).loc main_arg7)
abbrev w8 (c : Dev nD) : FVec Ideal S2x100 .f32 := m ((c.tc : Thread nD τ).loc main_arg8)
abbrev b9 (c : Dev nD) : FVec Ideal S2 .f32 := m ((c.tc : Thread nD τ).loc main_arg9)
abbrev w10 (c : Dev nD) : FVec Ideal S2x100 .f32 := m ((c.tc : Thread nD τ).loc main_arg10)

/-! ## Before the first call -/

/-- The contents the first call is entered with, as ONE run of the host operations before it from the launch memory. -/
theorem W5_flat (c : Dev nD) : W5 (F := Ideal) m ρ c
    = after (hostOps0 ++ (hostOps0_1 ++ (hostOps0_2 ++ (hostOps0_3 ++ hostOps0_4)))) (W0 m ρ c) := by
  simp only [after_append]

set_option maxHeartbeats 2000000 in
theorem entry0_agg (c : Dev nD) : (W5 (F := Ideal) m ρ c (Proc.devRef .tc main_v14) : FVec Ideal S20480x256 .f32)
    = pad S20480x256 ![0, 0] ![480, 0] ![0, 0] (agg256 (x0 m c) (srcRow (ed m c)) (dstRow (ed m c))) padValue
        pads_S20000x256_S20480x256_04800_000 h_S_ := by
  rw [W5_flat]
  simp only [hostOps0, hostOps0_1, hostOps0_2, hostOps0_3, hostOps0_4, List.cons_append, List.nil_append]
  after_results_simp <;> rfl

set_option maxHeartbeats 2000000 in
theorem entry0_feat (c : Dev nD) : (W5 (F := Ideal) m ρ c (Proc.devRef .tc main_v15) : FVec Ideal S20480x256 .f32)
    = pad S20480x256 ![0, 0] ![480, 0] ![0, 0] (x0 m c) padValue pads_S20000x256_S20480x256_04800_000 h_S_ := by
  rw [W5_flat]
  simp only [hostOps0, hostOps0_1, hostOps0_2, hostOps0_3, hostOps0_4, List.cons_append, List.nil_append]
  after_results_simp <;> rfl

set_option maxHeartbeats 2000000 in
theorem entry0_wrel (c : Dev nD) : (W5 (F := Ideal) m ρ c (Proc.devRef .tc main_v16) : FVec Ideal S256x200 .f32)
    = transpose S256x200 [1, 0] (w2 m c) transposes_S200x256_S256x200_1_0 := by
  rw [W5_flat]
  simp only [hostOps0, hostOps0_1, hostOps0_2, hostOps0_3, hostOps0_4, List.cons_append, List.nil_append]
  after_results_simp <;> rfl

set_option maxHeartbeats 2000000 in
theorem entry0_wroot (c : Dev nD) : (W5 (F := Ideal) m ρ c (Proc.devRef .tc main_v17) : FVec Ideal S256x200 .f32)
    = transpose S256x200 [1, 0] (w4 m c) transposes_S200x256_S256x200_1_0 := by
  rw [W5_flat]
  simp only [hostOps0, hostOps0_1, hostOps0_2, hostOps0_3, hostOps0_4, List.cons_append, List.nil_append]
  after_results_simp <;> rfl

set_option maxHeartbeats 2000000 in
theorem entry0_bias (c : Dev nD) : (W5 (F := Ideal) m ρ c (Proc.devRef .tc main_v18) : FVec Ideal S1x200 .f32)
    = shapeCast S1x200 (b3 m c) shapeCasts_S200_S1x200 := by
  rw [W5_flat]
  simp only [hostOps0, hostOps0_1, hostOps0_2, hostOps0_3, hostOps0_4, List.cons_append, List.nil_append]
  after_results_simp <;> rfl

set_option maxHeartbeats 2000000 in
theorem entry0_src (c : Dev nD) : (W5 (F := Ideal) m ρ c (Proc.devRef .tc main_v1) : Row) = srcRow (ed m c) := by
  rw [W5_flat]
  simp only [hostOps0, hostOps0_1, hostOps0_2, hostOps0_3, hostOps0_4, List.cons_append, List.nil_append]
  after_results_simp <;> rfl

set_option maxHeartbeats 2000000 in
theorem entry0_dst (c : Dev nD) : (W5 (F := Ideal) m ρ c (Proc.devRef .tc main_v3) : Row) = dstRow (ed m c) := by
  rw [W5_flat]
  simp only [hostOps0, hostOps0_1, hostOps0_2, hostOps0_3, hostOps0_4, List.cons_append, List.nil_append]
  after_results_simp <;> rfl

set_option maxHeartbeats 2000000 in
theorem entry0_arg5 (c : Dev nD) : (W5 (F := Ideal) m ρ c (Proc.devRef .tc main_arg5) : FVec Ideal S100x200 .f32) = w5 m c := by
  rw [W5_flat]
  simp only [hostOps0, hostOps0_1, hostOps0_2, hostOps0_3, hostOps0_4, List.cons_append, List.nil_append]
  after_results_simp <;> rfl

set_option maxHeartbeats 2000000 in
theorem entry0_arg6 (c : Dev nD) : (W5 (F := Ideal) m ρ c (Proc.devRef .tc main_arg6) : FVec Ideal S100 .f32) = b6 m c := by
  rw [W5_flat]
  simp only [hostOps0, hostOps0_1, hostOps0_2, hostOps0_3, hostOps0_4, List.cons_append, List.nil_append]
  after_results_simp <;> rfl

set_option maxHeartbeats 2000000 in
theorem entry0_arg7 (c : Dev nD) : (W5 (F := Ideal) m ρ c (Proc.devRef .tc main_arg7) : FVec Ideal S100x200 .f32) = w7 m c := by
  rw [W5_flat]
  simp only [hostOps0, hostOps0_1, hostOps0_2, hostOps0_3, hostOps0_4, List.cons_append, List.nil_append]
  after_results_simp <;> rfl

set_option maxHeartbeats 2000000 in
theorem entry0_arg8 (c : Dev nD) : (W5 (F := Ideal) m ρ c (Proc.devRef .tc main_arg8) : FVec Ideal S2x100 .f32) = w8 m c := by
  rw [W5_flat]
  simp only [hostOps0, hostOps0_1, hostOps0_2, hostOps0_3, hostOps0_4, List.cons_append, List.nil_append]
  after_results_simp <;> rfl

set_option maxHeartbeats 2000000 in
theorem entry0_arg9 (c : Dev nD) : (W5 (F := Ideal) m ρ c (Proc.devRef .tc main_arg9) : FVec Ideal S2 .f32) = b9 m c := by
  rw [W5_flat]
  simp only [hostOps0, hostOps0_1, hostOps0_2, hostOps0_3, hostOps0_4, List.cons_append, List.nil_append]
  after_results_simp <;> rfl

set_option maxHeartbeats 2000000 in
theorem entry0_arg10 (c : Dev nD) : (W5 (F := Ideal) m ρ c (Proc.devRef .tc main_arg10) : FVec Ideal S2x100 .f32) = w10 m c := by
  rw [W5_flat]
  simp only [hostOps0, hostOps0_1, hostOps0_2, hostOps0_3, hostOps0_4, List.cons_append, List.nil_append]
  after_results_simp <;> rfl

/-! ## After the first call -/

/-- The first call's output array is the layer of the arrays it was entered with. -/
theorem exit0_out (c : Dev nD) : (W6 (F := Ideal) m ρ c (Proc.devRef .tc main_v19) : S20480x200.Idx → EReal)
    = Region0.layerArr (V5 m ρ) c :=
  (W6_arr m ρ c 5).trans (Region0.arr_eq (V5 m ρ) c)

/-- The call writes none of the buffers the later steps read from before it. -/
theorem exit0_src (c : Dev nD) : (W6 (F := Ideal) m ρ c (Proc.devRef .tc main_v1) : Row) = srcRow (ed m c) :=
  (W6_of_ne m ρ c main_v1 (by decide)).trans (entry0_src m ρ c)
theorem exit0_dst (c : Dev nD) : (W6 (F := Ideal) m ρ c (Proc.devRef .tc main_v3) : Row) = dstRow (ed m c) :=
  (W6_of_ne m ρ c main_v3 (by decide)).trans (entry0_dst m ρ c)
theorem exit0_arg5 (c : Dev nD) : (W6 (F := Ideal) m ρ c (Proc.devRef .tc main_arg5) : FVec Ideal S100x200 .f32) = w5 m c :=
  (W6_of_ne m ρ c main_arg5 (by decide)).trans (entry0_arg5 m ρ c)
theorem exit0_arg6 (c : Dev nD) : (W6 (F := Ideal) m ρ c (Proc.devRef .tc main_arg6) : FVec Ideal S100 .f32) = b6 m c :=
  (W6_of_ne m ρ c main_arg6 (by decide)).trans (entry0_arg6 m ρ c)
theorem exit0_arg7 (c : Dev nD) : (W6 (F := Ideal) m ρ c (Proc.devRef .tc main_arg7) : FVec Ideal S100x200 .f32) = w7 m c :=
  (W6_of_ne m ρ c main_arg7 (by decide)).trans (entry0_arg7 m ρ c)
theorem exit0_arg8 (c : Dev nD) : (W6 (F := Ideal) m ρ c (Proc.devRef .tc main_arg8) : FVec Ideal S2x100 .f32) = w8 m c :=
  (W6_of_ne m ρ c main_arg8 (by decide)).trans (entry0_arg8 m ρ c)
theorem exit0_arg9 (c : Dev nD) : (W6 (F := Ideal) m ρ c (Proc.devRef .tc main_arg9) : FVec Ideal S2 .f32) = b9 m c :=
  (W6_of_ne m ρ c main_arg9 (by decide)).trans (entry0_arg9 m ρ c)
theorem exit0_arg10 (c : Dev nD) : (W6 (F := Ideal) m ρ c (Proc.devRef .tc main_arg10) : FVec Ideal S2x100 .f32) = w10 m c :=
  (W6_of_ne m ρ c main_arg10 (by decide)).trans (entry0_arg10 m ρ c)

/-- The features after the first layer: the first 20000 rows of the first call's output. -/
def feat1 (c : Dev nD) : FVec Ideal S20000x200 .f32 :=
  extractStridedSlice S20000x200 ![0, 0] (Region0.layerArr (V5 m ρ) c) slices_S20480x200_S20000x200_0_0

/-! ## Before the second call -/

theorem W11_flat (c : Dev nD) : W11 (F := Ideal) m ρ c
    = after (hostOps1 ++ (hostOps1_1 ++ (hostOps1_2 ++ (hostOps1_3 ++ hostOps1_4)))) (W6 m ρ c) := by
  simp only [after_append]

set_option maxHeartbeats 2000000 in
theorem entry1_agg (c : Dev nD) : (W11 (F := Ideal) m ρ c (Proc.devRef .tc main_v31) : FVec Ideal S20480x200 .f32)
    = pad S20480x200 ![0, 0] ![480, 0] ![0, 0] (agg200 (feat1 m ρ c) (srcRow (ed m c)) (dstRow (ed m c))) padValue
        pads_S20000x200_S20480x200_04800_000 h_S_ := by
  rw [W11_flat]
  simp only [hostOps1, hostOps1_1, hostOps1_2, hostOps1_3, hostOps1_4, List.cons_append, List.nil_append]
  after_results_simp
  rw [exit0_out, exit0_src, exit0_dst]
  rfl

set_option maxHeartbeats 2000000 in
theorem entry1_feat (c : Dev nD) : (W11 (F := Ideal) m ρ c (Proc.devRef .tc main_v32) : FVec Ideal S20480x200 .f32)
    = pad S20480x200 ![0, 0] ![480, 0] ![0, 0] (feat1 m ρ c) padValue pads_S20000x200_S20480x200_04800_000 h_S_ := by
  rw [W11_flat]
  simp only [hostOps1, hostOps1_1, hostOps1_2, hostOps1_3, hostOps1_4, List.cons_append, List.nil_append]
  after_results_simp
  rw [exit0_out]
  rfl

set_option maxHeartbeats 2000000 in
theorem entry1_wrel (c : Dev nD) : (W11 (F := Ideal) m ρ c (Proc.devRef .tc main_v33) : FVec Ideal S200x100 .f32)
    = transpose S200x100 [1, 0] (w5 m c) transposes_S100x200_S200x100_1_0 := by
  rw [W11_flat]
  simp only [hostOps1, hostOps1_1, hostOps1_2, hostOps1_3, hostOps1_4, List.cons_append, List.nil_append]
  after_results_simp
  rw [exit0_arg5]

set_option maxHeartbeats 2000000 in
theorem entry1_wroot (c : Dev nD) : (W11 (F := Ideal) m ρ c (Proc.devRef .tc main_v34) : FVec Ideal S200x100 .f32)
    = transpose S200x100 [1, 0] (w7 m c) transposes_S100x200_S200x100_1_0 := by
  rw [W11_flat]
  simp only [hostOps1, hostOps1_1, hostOps1_2, hostOps1_3, hostOps1_4, List.cons_append, List.nil_append]
  after_results_simp
  rw [exit0_arg7]

set_option maxHeartbeats 2000000 in
theorem entry1_bias (c : Dev nD) : (W11 (F := Ideal) m ρ c (Proc.devRef .tc main_v35) : FVec Ideal S1x100 .f32)
    = shapeCast S1x100 (b6 m c) shapeCasts_S100_S1x100 := by
  rw [W11_flat]
  simp only [hostOps1, hostOps1_1, hostOps1_2, hostOps1_3, hostOps1_4, List.cons_append, List.nil_append]
  after_results_simp
  rw [exit0_arg6]
  rfl

set_option maxHeartbeats 2000000 in
theorem entry1_src (c : Dev nD) : (W11 (F := Ideal) m ρ c (Proc.devRef .tc main_v1) : Row) = srcRow (ed m c) := by
  rw [W11_flat]
  simp only [hostOps1, hostOps1_1, hostOps1_2, hostOps1_3, hostOps1_4, List.cons_append, List.nil_append]
  after_results_simp
  exact exit0_src m ρ c

set_option maxHeartbeats 2000000 in
theorem entry1_dst (c : Dev nD) : (W11 (F := Ideal) m ρ c (Proc.devRef .tc main_v3) : Row) = dstRow (ed m c) := by
  rw [W11_flat]
  simp only [hostOps1, hostOps1_1, hostOps1_2, hostOps1_3, hostOps1_4, List.cons_append, List.nil_append]
  after_results_simp
  exact exit0_dst m ρ c

set_option maxHeartbeats 2000000 in
theorem entry1_arg8 (c : Dev nD) : (W11 (F := Ideal) m ρ c (Proc.devRef .tc main_arg8) : FVec Ideal S2x100 .f32) = w8 m c := by
  rw [W11_flat]
  simp only [hostOps1, hostOps1_1, hostOps1_2, hostOps1_3, hostOps1_4, List.cons_append, List.nil_append]
  after_results_simp
  exact exit0_arg8 m ρ c

set_option maxHeartbeats 2000000 in
theorem entry1_arg9 (c : Dev nD) : (W11 (F := Ideal) m ρ c (Proc.devRef .tc main_arg9) : FVec Ideal S2 .f32) = b9 m c := by
  rw [W11_flat]
  simp only [hostOps1, hostOps1_1, hostOps1_2, hostOps1_3, hostOps1_4, List.cons_append, List.nil_append]
  after_results_simp
  exact exit0_arg9 m ρ c

set_option maxHeartbeats 2000000 in
theorem entry1_arg10 (c : Dev nD) : (W11 (F := Ideal) m ρ c (Proc.devRef .tc main_arg10) : FVec Ideal S2x100 .f32) = w10 m c := by
  rw [W11_flat]
  simp only [hostOps1, hostOps1_1, hostOps1_2, hostOps1_3, hostOps1_4, List.cons_append, List.nil_append]
  after_results_simp
  exact exit0_arg10 m ρ c

/-! ## After the second call -/

theorem exit1_out (c : Dev nD) : (W12 (F := Ideal) m ρ c (Proc.devRef .tc main_v36) : S20480x100.Idx → EReal)
    = Region1.layerArr (V11 m ρ) c :=
  (W12_arr m ρ c 5).trans (Region1.arr_eq (V11 m ρ) c)
theorem exit1_src (c : Dev nD) : (W12 (F := Ideal) m ρ c (Proc.devRef .tc main_v1) : Row) = srcRow (ed m c) :=
  (W12_of_ne m ρ c main_v1 (by decide)).trans (entry1_src m ρ c)
theorem exit1_dst (c : Dev nD) : (W12 (F := Ideal) m ρ c (Proc.devRef .tc main_v3) : Row) = dstRow (ed m c) :=
  (W12_of_ne m ρ c main_v3 (by decide)).trans (entry1_dst m ρ c)
theorem exit1_arg8 (c : Dev nD) : (W12 (F := Ideal) m ρ c (Proc.devRef .tc main_arg8) : FVec Ideal S2x100 .f32) = w8 m c :=
  (W12_of_ne m ρ c main_arg8 (by decide)).trans (entry1_arg8 m ρ c)
theorem exit1_arg9 (c : Dev nD) : (W12 (F := Ideal) m ρ c (Proc.devRef .tc main_arg9) : FVec Ideal S2 .f32) = b9 m c :=
  (W12_of_ne m ρ c main_arg9 (by decide)).trans (entry1_arg9 m ρ c)
theorem exit1_arg10 (c : Dev nD) : (W12 (F := Ideal) m ρ c (Proc.devRef .tc main_arg10) : FVec Ideal S2x100 .f32) = w10 m c :=
  (W12_of_ne m ρ c main_arg10 (by decide)).trans (entry1_arg10 m ρ c)

/-- The features after the second layer: the first 20000 rows of the second call's output. -/
def feat2 (c : Dev nD) : FVec Ideal S20000x100 .f32 :=
  extractStridedSlice S20000x100 ![0, 0] (Region1.layerArr (V11 m ρ) c) slices_S20480x100_S20000x100_0_0

/-! ## Before the third call -/

theorem W17_flat (c : Dev nD) : W17 (F := Ideal) m ρ c
    = after (hostOps2 ++ (hostOps2_1 ++ (hostOps2_2 ++ (hostOps2_3 ++ hostOps2_4)))) (W12 m ρ c) := by
  simp only [after_append]

set_option maxHeartbeats 2000000 in
theorem entry2_agg (c : Dev nD) : (W17 (F := Ideal) m ρ c (Proc.devRef .tc main_v48) : FVec Ideal S20480x100 .f32)
    = pad S20480x100 ![0, 0] ![480, 0] ![0, 0] (agg100 (feat2 m ρ c) (srcRow (ed m c)) (dstRow (ed m c))) padValue
        pads_S20000x100_S20480x100_04800_000 h_S_ := by
  rw [W17_flat]
  simp only [hostOps2, hostOps2_1, hostOps2_2, hostOps2_3, hostOps2_4, List.cons_append, List.nil_append]
  after_results_simp
  rw [exit1_out, exit1_src, exit1_dst]
  rfl

set_option maxHeartbeats 2000000 in
theorem entry2_feat (c : Dev nD) : (W17 (F := Ideal) m ρ c (Proc.devRef .tc main_v49) : FVec Ideal S20480x100 .f32)
    = pad S20480x100 ![0, 0] ![480, 0] ![0, 0] (feat2 m ρ c) padValue pads_S20000x100_S20480x100_04800_000 h_S_ := by
  rw [W17_flat]
  simp only [hostOps2, hostOps2_1, hostOps2_2, hostOps2_3, hostOps2_4, List.cons_append, List.nil_append]
  after_results_simp
  rw [exit1_out]
  rfl

set_option maxHeartbeats 2000000 in
theorem entry2_wrel (c : Dev nD) : (W17 (F := Ideal) m ρ c (Proc.devRef .tc main_v50) : FVec Ideal S100x2 .f32)
    = transpose S100x2 [1, 0] (w8 m c) transposes_S2x100_S100x2_1_0 := by
  rw [W17_flat]
  simp only [hostOps2, hostOps2_1, hostOps2_2, hostOps2_3, hostOps2_4, List.cons_append, List.nil_append]
  after_results_simp
  rw [exit1_arg8]

set_option maxHeartbeats 2000000 in
theorem entry2_wroot (c : Dev nD) : (W17 (F := Ideal) m ρ c (Proc.devRef .tc main_v51) : FVec Ideal S100x2 .f32)
    = transpose S100x2 [1, 0] (w10 m c) transposes_S2x100_S100x2_1_0 := by
  rw [W17_flat]
  simp only [hostOps2, hostOps2_1, hostOps2_2, hostOps2_3, hostOps2_4, List.cons_append, List.nil_append]
  after_results_simp
  rw [exit1_arg10]

set_option maxHeartbeats 2000000 in
theorem entry2_bias (c : Dev nD) : (W17 (F := Ideal) m ρ c (Proc.devRef .tc main_v52) : FVec Ideal S1x2 .f32)
    = shapeCast S1x2 (b9 m c) shapeCasts_S2_S1x2 := by
  rw [W17_flat]
  simp only [hostOps2, hostOps2_1, hostOps2_2, hostOps2_3, hostOps2_4, List.cons_append, List.nil_append]
  after_results_simp
  rw [exit1_arg9]
  rfl

/-! ## After the third call -/

theorem exit2_out (c : Dev nD) : (W18 (F := Ideal) m ρ c (Proc.devRef .tc main_v53) : S20480x2.Idx → EReal)
    = Region2.layerArr (V17 m ρ) c :=
  (W18_arr m ρ c 5).trans (Region2.arr_eq (V17 m ρ) c)

/-- The features after the third layer: the first 20000 rows of the third call's output. -/
def feat3 (c : Dev nD) : FVec Ideal S20000x2 .f32 :=
  extractStridedSlice S20000x2 ![0, 0] (Region2.layerArr (V17 m ρ) c) slices_S20480x2_S20000x2_0_0

/-- The program's result is the features after the third layer. -/
theorem result_eq (c : Dev nD) : (W19 (F := Ideal) m ρ c (Proc.devRef .tc main_v54) : FVec Ideal S20000x2 .f32) = feat3 m ρ c := by
  show after hostOps3 (W18 m ρ c) (Proc.devRef .tc main_v54) = _
  simp only [hostOps3]
  after_results_simp
  rw [exit2_out]
  rfl

end Cert.KernelIdeal.Host

end
-- ==== Proof.LibRowsAppended.lean ====
/-
  Three layout readings at an entry, for any sizes.

  * A host `pad` that appends rows below a matrix (no low padding, no interior padding, nothing appended to the columns
    on the low side) reads, at a row of the original matrix, the matrix itself: the appended rows and the padding value
    play no part.
  * A slice that keeps the first rows and all the columns of a matrix reads, at `(p, q)`, the matrix at `(p, q)`.
  * A vector of `C` entries re-laid as a `1 × C` row reads, at `(0, q)`, the vector at `q`.
-/
import Idealize.ShloMosaic.Lib.Pipeline.Value
import Idealize.ShloMosaic.Lib.ValueIdx
import Idealize.ShloMosaic.Lib.KernelVsHost

noncomputable section

namespace Cert.Lib.RowsAppended

open Idealize.ShloMosaic Idealize.ShloMosaic.ValueIdx

variable {α : Type}

/-- A matrix with rows appended below it, read at row `P` with `P = p` a row of the matrix, is the matrix at row `p`. -/
theorem pad_rows_apply {n N K : ℕ} (hi : Fin 2 → ℕ) (x : (⟨2, ![n, K]⟩ : Shape).Idx → α) {u : Shape} (v : u.Idx → α)
    (h : (⟨2, ![n, K]⟩ : Shape).Pads ![0, 0] hi ![0, 0] ⟨2, ![N, K]⟩) (hu : 0 < u.numel)
    (p : Fin n) (P : Fin N) (hP : P.val = p.val) (k : Fin K) :
    pad ⟨2, ![N, K]⟩ ![0, 0] hi ![0, 0] x v h hu (ix2 P k) = x (ix2 p k) :=
  pad_apply_of_inside ![0, 0] hi ![0, 0] x v h hu (ix2 P k) (ix2 p k) (fun a => by
    match a with
    | ⟨0, _⟩ => show P.val = 0 + p.val * (0 + 1); omega
    | ⟨1, _⟩ => show k.val = 0 + k.val * (0 + 1); omega)

/-- The first rows of a matrix kept by a slice: entry `(p, q)` is the matrix's entry at the same row and column. -/
theorem slice_rows_apply {n N C : ℕ} (X : (⟨2, ![N, C]⟩ : Shape).Idx → α)
    (h : (⟨2, ![N, C]⟩ : Shape).Slices ![0, 0] ⟨2, ![n, C]⟩) (p : Fin n) (P : Fin N) (hP : P.val = p.val) (q : Fin C) :
    extractStridedSlice ⟨2, ![n, C]⟩ ![0, 0] X h (ix2 p q) = X (ix2 P q) :=
  extractStridedSlice_apply ![0, 0] X h (ix2 p q) (ix2 P q) (fun a => by
    match a with
    | ⟨0, _⟩ => show P.val = 0 + p.val; omega
    | ⟨1, _⟩ => show q.val = 0 + q.val; omega)

/-- A vector re-laid as a `1 × C` row, read at `(0, q)`, is the vector at `q`. -/
theorem row_of_vector_apply {C : ℕ} (b : (⟨1, ![C]⟩ : Shape).Idx → α) (h : (⟨1, ![C]⟩ : Shape).ShapeCasts ⟨2, ![1, C]⟩) (q : Fin C) :
    shapeCast ⟨2, ![1, C]⟩ b h (ix2 (0 : Fin 1) q) = b (ix1 q) :=
  shapeCast_apply b h (ix2 (0 : Fin 1) q) (ix1 q) (by
    rw [Shape.rowMajor_val_one, Shape.rowMajor_val_two]
    show q.val = 0 * C + q.val
    omega)

end Cert.Lib.RowsAppended

end
-- ==== Proof.KernelValue.lean ====
/-
  The idealized kernel's result as a function of its arguments.

  Each pallas_call leaves, in the first 20000 rows of its output, the layer of the features before it: the call's output
  array is the layer of the arrays it is entered with (one region at a time), those arrays are the aggregated and the
  current features with 480 rows appended, the transposed weights and the bias as a row, and a row of the layer reads only
  the same row of its inputs. Three layers chained give the program's result.
-/
import proofs.«162557_j84859963834407_1_alg».proof.Proof.KernelHost
import proofs.«162557_j84859963834407_1_alg».proof.Proof.LibGraphLayer
import proofs.«162557_j84859963834407_1_alg».proof.Proof.LibRowsAppended

set_option maxRecDepth 16384

noncomputable section

namespace Cert.KernelIdeal.Value

open Cert.KernelIdeal Cert.KernelIdeal.Gen Cert.KernelIdeal.Host Idealize.ShloMosaic Idealize.ShloMosaic.TcCoe
open Idealize.ShloMosaic.ValueIdx Idealize.SL.Sem Cert.Lib.GraphLayer Cert.Lib.RowsAppended

variable (m : (ℓ : Loc nD τ sig) → Buf (Elt Ideal) ℓ) (ρ : Dev nD → PrngReg)

/-- The features after the first layer, as the layer of the features before it. -/
def out1 (c : Dev nD) : FVec Ideal S20000x200 .f32 :=
  layerOf (agg256 (x0 m c) (srcRow (ed m c)) (dstRow (ed m c))) (x0 m c)
    (transpose S256x200 [1, 0] (w2 m c) transposes_S200x256_S256x200_1_0) (transpose S256x200 [1, 0] (w4 m c) transposes_S200x256_S256x200_1_0)
    (fun q => b3 m c (ix1 q))

/-- The first 20000 rows of the first call's output are the layer of the features before it: a row of the layer reads
    the same row of the padded inputs, which below row 20000 are the inputs themselves. -/
theorem feat1_eq (c : Dev nD) : feat1 m ρ c = out1 m c := by
  funext i
  obtain ⟨p, q, rfl⟩ : ∃ (p : Fin 20000) (q : Fin 200), i = ix2 p q := ⟨i 0, i 1, eq_ix2 i⟩
  have hp : p.val < 20480 := by have := p.isLt; omega
  unfold feat1
  rw [slice_rows_apply _ slices_S20480x200_S20000x200_0_0 p (⟨p.val, hp⟩ : Fin 20480) rfl q]
  show layerAt (W5 (F := Ideal) m ρ c (Proc.devRef .tc main_v14) : S20480x256.Idx → EReal)
      (W5 (F := Ideal) m ρ c (Proc.devRef .tc main_v15) : S20480x256.Idx → EReal)
      (W5 (F := Ideal) m ρ c (Proc.devRef .tc main_v16) : S256x200.Idx → EReal)
      (W5 (F := Ideal) m ρ c (Proc.devRef .tc main_v17) : S256x200.Idx → EReal)
      (fun q => (W5 (F := Ideal) m ρ c (Proc.devRef .tc main_v18) : S1x200.Idx → EReal) (ix2 (0 : Fin 1) q))
      (⟨p.val, hp⟩ : Fin 20480) q
    = layerAt (agg256 (x0 m c) (srcRow (ed m c)) (dstRow (ed m c))) (x0 m c)
      (transpose S256x200 [1, 0] (w2 m c) transposes_S200x256_S256x200_1_0) (transpose S256x200 [1, 0] (w4 m c) transposes_S200x256_S256x200_1_0)
      (fun q => b3 m c (ix1 q)) p q
  refine layerAt_congr _ _ _ _ _ _ _ _ _ _ _ p q (fun k => ?_) (fun k => ?_) (fun k => ?_) (fun k => ?_) ?_
  · refine (congrFun (entry0_agg m ρ c) _).trans ?_
    exact pad_rows_apply ![480, 0] _ padValue pads_S20000x256_S20480x256_04800_000 h_S_ p _ rfl k
  · refine (congrFun (entry0_feat m ρ c) _).trans ?_
    exact pad_rows_apply ![480, 0] _ padValue pads_S20000x256_S20480x256_04800_000 h_S_ p _ rfl k
  · exact congrFun (entry0_wrel m ρ c) _
  · exact congrFun (entry0_wroot m ρ c) _
  · exact (congrFun (entry0_bias m ρ c) _).trans (row_of_vector_apply (b3 m c) shapeCasts_S200_S1x200 q)

/-- The features after the second layer, as the layer of the features before it. -/
def out2 (c : Dev nD) : FVec Ideal S20000x100 .f32 :=
  layerOf (agg200 (out1 m c) (srcRow (ed m c)) (dstRow (ed m c))) (out1 m c)
    (transpose S200x100 [1, 0] (w5 m c) transposes_S100x200_S200x100_1_0) (transpose S200x100 [1, 0] (w7 m c) transposes_S100x200_S200x100_1_0)
    (fun q => b6 m c (ix1 q))

/-- The first 20000 rows of the second call's output are the layer of the features before it: a row of the layer reads
    the same row of the padded inputs, which below row 20000 are the inputs themselves. -/
theorem feat2_eq (c : Dev nD) : feat2 m ρ c = out2 m c := by
  funext i
  obtain ⟨p, q, rfl⟩ : ∃ (p : Fin 20000) (q : Fin 100), i = ix2 p q := ⟨i 0, i 1, eq_ix2 i⟩
  have hp : p.val < 20480 := by have := p.isLt; omega
  unfold feat2
  rw [slice_rows_apply _ slices_S20480x100_S20000x100_0_0 p (⟨p.val, hp⟩ : Fin 20480) rfl q]
  show layerAt (W11 (F := Ideal) m ρ c (Proc.devRef .tc main_v31) : S20480x200.Idx → EReal)
      (W11 (F := Ideal) m ρ c (Proc.devRef .tc main_v32) : S20480x200.Idx → EReal)
      (W11 (F := Ideal) m ρ c (Proc.devRef .tc main_v33) : S200x100.Idx → EReal)
      (W11 (F := Ideal) m ρ c (Proc.devRef .tc main_v34) : S200x100.Idx → EReal)
      (fun q => (W11 (F := Ideal) m ρ c (Proc.devRef .tc main_v35) : S1x100.Idx → EReal) (ix2 (0 : Fin 1) q))
      (⟨p.val, hp⟩ : Fin 20480) q
    = layerAt (agg200 (out1 m c) (srcRow (ed m c)) (dstRow (ed m c))) (out1 m c)
      (transpose S200x100 [1, 0] (w5 m c) transposes_S100x200_S200x100_1_0) (transpose S200x100 [1, 0] (w7 m c) transposes_S100x200_S200x100_1_0)
      (fun q => b6 m c (ix1 q)) p q
  refine layerAt_congr _ _ _ _ _ _ _ _ _ _ _ p q (fun k => ?_) (fun k => ?_) (fun k => ?_) (fun k => ?_) ?_
  · refine (congrFun (entry1_agg m ρ c) _).trans ?_
    rw [feat1_eq]
    exact pad_rows_apply ![480, 0] _ padValue pads_S20000x200_S20480x200_04800_000 h_S_ p _ rfl k
  · refine (congrFun (entry1_feat m ρ c) _).trans ?_
    rw [feat1_eq]
    exact pad_rows_apply ![480, 0] _ padValue pads_S20000x200_S20480x200_04800_000 h_S_ p _ rfl k
  · exact congrFun (entry1_wrel m ρ c) _
  · exact congrFun (entry1_wroot m ρ c) _
  · exact (congrFun (entry1_bias m ρ c) _).trans (row_of_vector_apply (b6 m c) shapeCasts_S100_S1x100 q)

/-- The features after the third layer, as the layer of the features before it. -/
def out3 (c : Dev nD) : FVec Ideal S20000x2 .f32 :=
  layerOf (agg100 (out2 m c) (srcRow (ed m c)) (dstRow (ed m c))) (out2 m c)
    (transpose S100x2 [1, 0] (w8 m c) transposes_S2x100_S100x2_1_0) (transpose S100x2 [1, 0] (w10 m c) transposes_S2x100_S100x2_1_0)
    (fun q => b9 m c (ix1 q))

/-- The first 20000 rows of the third call's output are the layer of the features before it: a row of the layer reads
    the same row of the padded inputs, which below row 20000 are the inputs themselves. -/
theorem feat3_eq (c : Dev nD) : feat3 m ρ c = out3 m c := by
  funext i
  obtain ⟨p, q, rfl⟩ : ∃ (p : Fin 20000) (q : Fin 2), i = ix2 p q := ⟨i 0, i 1, eq_ix2 i⟩
  have hp : p.val < 20480 := by have := p.isLt; omega
  unfold feat3
  rw [slice_rows_apply _ slices_S20480x2_S20000x2_0_0 p (⟨p.val, hp⟩ : Fin 20480) rfl q]
  show layerAt (W17 (F := Ideal) m ρ c (Proc.devRef .tc main_v48) : S20480x100.Idx → EReal)
      (W17 (F := Ideal) m ρ c (Proc.devRef .tc main_v49) : S20480x100.Idx → EReal)
      (W17 (F := Ideal) m ρ c (Proc.devRef .tc main_v50) : S100x2.Idx → EReal)
      (W17 (F := Ideal) m ρ c (Proc.devRef .tc main_v51) : S100x2.Idx → EReal)
      (fun q => (W17 (F := Ideal) m ρ c (Proc.devRef .tc main_v52) : S1x2.Idx → EReal) (ix2 (0 : Fin 1) q))
      (⟨p.val, hp⟩ : Fin 20480) q
    = layerAt (agg100 (out2 m c) (srcRow (ed m c)) (dstRow (ed m c))) (out2 m c)
      (transpose S100x2 [1, 0] (w8 m c) transposes_S2x100_S100x2_1_0) (transpose S100x2 [1, 0] (w10 m c) transposes_S2x100_S100x2_1_0)
      (fun q => b9 m c (ix1 q)) p q
  refine layerAt_congr _ _ _ _ _ _ _ _ _ _ _ p q (fun k => ?_) (fun k => ?_) (fun k => ?_) (fun k => ?_) ?_
  · refine (congrFun (entry2_agg m ρ c) _).trans ?_
    rw [feat2_eq]
    exact pad_rows_apply ![480, 0] _ padValue pads_S20000x100_S20480x100_04800_000 h_S_ p _ rfl k
  · refine (congrFun (entry2_feat m ρ c) _).trans ?_
    rw [feat2_eq]
    exact pad_rows_apply ![480, 0] _ padValue pads_S20000x100_S20480x100_04800_000 h_S_ p _ rfl k
  · exact congrFun (entry2_wrel m ρ c) _
  · exact congrFun (entry2_wroot m ρ c) _
  · exact (congrFun (entry2_bias m ρ c) _).trans (row_of_vector_apply (b9 m c) shapeCasts_S2_S1x2 q)

/-- The program's result buffer, at the last boundary, holds the features after the third layer. -/
theorem result_value (c : Dev nD) : (W19 (F := Ideal) m ρ c (Proc.devRef .tc main_v54) : FVec Ideal S20000x2 .f32) = out3 m c :=
  (result_eq m ρ c).trans (feat3_eq m ρ c)

end Cert.KernelIdeal.Value

end
-- ==== Proof.RefValue.lean ====
/-
  The idealized reference, layer by layer.

  The reference computes each layer on the host: it cuts the edge list into source and destination rows, shifts negative
  source indices, gathers the source rows of the current features and scatter-adds them at the destination rows of an
  array of zeros; then it multiplies the aggregated features by the transposed neighbour weights, adds the bias spread
  over all rows, adds the product of the current features with the transposed root weights, and takes the maximum with
  zero. Entry by entry that is the layer's entry (the three terms are added in another order than in the kernel:
  addition of extended reals is commutative and associative). The gather and the scatter-add are carried as one
  function of the features and the two index rows and never opened.
-/
import proofs.«162557_j84859963834407_1_alg».proof.Proof.Gen.ReferenceIdeal.Read
import proofs.«162557_j84859963834407_1_alg».proof.Proof.LibGraphLayer
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Cert.Lib.GraphLayer

/-! ## The host terms -/

abbrev Edges := (⟨S2x320000, .i32⟩ : BufTy).Contents (Elt Ideal)
abbrev Row := (⟨S320000, .i32⟩ : BufTy).Contents (Elt Ideal)
abbrev Col := (⟨S320000x1, .i32⟩ : BufTy).Contents (Elt Ideal)

/-- The edge list's row of source nodes. -/
def srcRow (e : Edges) : Row :=
  shapeCast S320000 (extractStridedSlice S1x320000 ![0, 0] e slices_S2x320000_S1x320000_0_0) shapeCasts_S1x320000_S320000
/-- The edge list's row of destination nodes. -/
def dstRow (e : Edges) : Row :=
  shapeCast S320000 (extractStridedSlice S1x320000 ![1, 0] e slices_S2x320000_S1x320000_1_0) shapeCasts_S1x320000_S320000
/-- The source nodes as a column of gather positions: a negative index is shifted by the number of nodes. -/
def srcCol (v : Row) : Col :=
  broadcastInDim S320000x1 ![0] bcast_S320000_S320000x1_0
    (select (cmpi .slt v (broadcastInDim S320000 ![] bcast_S_S320000 (constantI S_ 32 0#32)))
      (addi v (broadcastInDim S320000 ![] bcast_S_S320000 (constantI S_ 32 20000#32))) v)
/-- The destination nodes as a column of scatter positions. -/
def dstCol (v : Row) : Col := broadcastInDim S320000x1 ![0] bcast_S320000_S320000x1_0 v

/-- Each node's sum of its neighbours' 256 features. -/
def agg256 (x : FVec Ideal S20000x256 .f32) (s d : Row) : FVec Ideal S20000x256 .f32 :=
  Host.scatterAdd scatter_S20000x256_S320000x1_S320000x256_1_0_0_1
    (broadcastInDim S20000x256 ![] bcast_S_S20000x256 (constant S_ .f32 0x00000000#32)) (dstCol d)
    (Host.gather gather_S20000x256_S320000x1_S320000x256_1_0_n_n_0_1_1256 x (srcCol s))
/-- Each node's sum of its neighbours' 200 features. -/
def agg200 (x : FVec Ideal S20000x200 .f32) (s d : Row) : FVec Ideal S20000x200 .f32 :=
  Host.scatterAdd scatter_S20000x200_S320000x1_S320000x200_1_0_0_1
    (broadcastInDim S20000x200 ![] bcast_S_S20000x200 (constant S_ .f32 0x00000000#32)) (dstCol d)
    (Host.gather gather_S20000x200_S320000x1_S320000x200_1_0_n_n_0_1_1200 x (srcCol s))
/-- Each node's sum of its neighbours' 100 features. -/
def agg100 (x : FVec Ideal S20000x100 .f32) (s d : Row) : FVec Ideal S20000x100 .f32 :=
  Host.scatterAdd scatter_S20000x100_S320000x1_S320000x100_1_0_0_1
    (broadcastInDim S20000x100 ![] bcast_S_S20000x100 (constant S_ .f32 0x00000000#32)) (dstCol d)
    (Host.gather gather_S20000x100_S320000x1_S320000x100_1_0_n_n_0_1_1100 x (srcCol s))

section
variable (x0 : FVec Ideal S20000x256 .f32) (x1 : Edges) (x2 : FVec Ideal S200x256 .f32) (x3 : FVec Ideal S200 .f32)
  (x4 : FVec Ideal S200x256 .f32) (x5 : FVec Ideal S100x200 .f32) (x6 : FVec Ideal S100 .f32) (x7 : FVec Ideal S100x200 .f32)
  (x8 : FVec Ideal S2x100 .f32) (x9 : FVec Ideal S2 .f32) (x10 : FVec Ideal S2x100 .f32)

/-! ## The first layer -/

/-- The features after the first layer. -/
def out1 : FVec Ideal S20000x200 .f32 :=
  layerOf (agg256 x0 (srcRow x1) (dstRow x1)) x0 (transpose S256x200 [1, 0] x2 transposes_S200x256_S256x200_1_0)
    (transpose S256x200 [1, 0] x4 transposes_S200x256_S256x200_1_0) (fun q => x3 (ix1 q))

theorem agg1_eq : val_main_v13 (F := Ideal) x0 x1 = agg256 x0 (srcRow x1) (dstRow x1) := rfl

theorem bias1 (p : Fin 20000) (q : Fin 200) : val_main_v17 (F := Ideal) x3 (ix2 p q) = x3 (ix1 q) := by
  rw [val_main_v17_apply, val_main_v16_apply]
  exact congrArg x3 (funext fun a => Fin.ext (by match a with | ⟨0, _⟩ => rfl))

theorem zero1 (p : Fin 20000) (q : Fin 200) : val_main_call0_v0 (F := Ideal) (ix2 p q) = 0 := by
  rw [val_main_call0_v0_apply, val_main_call0_cst_apply]
  exact Ideal.ofBits_zero_f32

theorem layer1_eq : val_main_v22 (F := Ideal) x0 x1 x2 x3 x4 = out1 x0 x1 x2 x3 x4 := by
  funext i
  obtain ⟨p, q, rfl⟩ : ∃ (p : Fin 20000) (q : Fin 200), i = ix2 p q := ⟨i 0, i 1, eq_ix2 i⟩
  unfold val_main_v22 val_main_v21 val_main_v18 val_main_v15 val_main_v20
  exact host_entry dot_S20000x256_S256x200_S20000x200_1_0_0_1_n_n rfl none (val_main_v13 (F := Ideal) x0 x1) x0
    (val_main_v14 (F := Ideal) x2) (val_main_v19 (F := Ideal) x4) (val_main_v17 (F := Ideal) x3) (val_main_call0_v0 (F := Ideal))
    (fun q => x3 (ix1 q)) p q (bias1 x3 p q) (zero1 p q)

/-! ## The second layer -/

/-- The features after the second layer. -/
def out2 : FVec Ideal S20000x100 .f32 :=
  layerOf (agg200 (out1 x0 x1 x2 x3 x4) (srcRow x1) (dstRow x1)) (out1 x0 x1 x2 x3 x4)
    (transpose S200x100 [1, 0] x5 transposes_S100x200_S200x100_1_0)
    (transpose S200x100 [1, 0] x7 transposes_S100x200_S200x100_1_0) (fun q => x6 (ix1 q))

theorem agg2_eq : val_main_v32 (F := Ideal) x0 x1 x2 x3 x4
    = agg200 (val_main_v22 (F := Ideal) x0 x1 x2 x3 x4) (srcRow x1) (dstRow x1) := rfl

theorem bias2 (p : Fin 20000) (q : Fin 100) : val_main_v36 (F := Ideal) x6 (ix2 p q) = x6 (ix1 q) := by
  rw [val_main_v36_apply, val_main_v35_apply]
  exact congrArg x6 (funext fun a => Fin.ext (by match a with | ⟨0, _⟩ => rfl))

theorem zero2 (p : Fin 20000) (q : Fin 100) : val_main_call1_v0 (F := Ideal) (ix2 p q) = 0 := by
  rw [val_main_call1_v0_apply, val_main_call1_cst_apply]
  exact Ideal.ofBits_zero_f32

theorem layer2_eq : val_main_v41 (F := Ideal) x0 x1 x2 x3 x4 x5 x6 x7 = out2 x0 x1 x2 x3 x4 x5 x6 x7 := by
  funext i
  obtain ⟨p, q, rfl⟩ : ∃ (p : Fin 20000) (q : Fin 100), i = ix2 p q := ⟨i 0, i 1, eq_ix2 i⟩
  unfold val_main_v41 val_main_v40 val_main_v37 val_main_v34 val_main_v39 out2
  rw [agg2_eq, layer1_eq]
  exact host_entry dot_S20000x200_S200x100_S20000x100_1_0_0_1_n_n rfl none
    (agg200 (out1 x0 x1 x2 x3 x4) (srcRow x1) (dstRow x1)) (out1 x0 x1 x2 x3 x4)
    (val_main_v33 (F := Ideal) x5) (val_main_v38 (F := Ideal) x7) (val_main_v36 (F := Ideal) x6) (val_main_call1_v0 (F := Ideal))
    (fun q => x6 (ix1 q)) p q (bias2 x6 p q) (zero2 p q)

/-! ## The third layer -/

/-- The features after the third layer: the reference's result. -/
def out3 : FVec Ideal S20000x2 .f32 :=
  layerOf (agg100 (out2 x0 x1 x2 x3 x4 x5 x6 x7) (srcRow x1) (dstRow x1)) (out2 x0 x1 x2 x3 x4 x5 x6 x7)
    (transpose S100x2 [1, 0] x8 transposes_S2x100_S100x2_1_0)
    (transpose S100x2 [1, 0] x10 transposes_S2x100_S100x2_1_0) (fun q => x9 (ix1 q))

theorem agg3_eq : val_main_v51 (F := Ideal) x0 x1 x2 x3 x4 x5 x6 x7
    = agg100 (val_main_v41 (F := Ideal) x0 x1 x2 x3 x4 x5 x6 x7) (srcRow x1) (dstRow x1) := rfl

theorem bias3 (p : Fin 20000) (q : Fin 2) : val_main_v55 (F := Ideal) x9 (ix2 p q) = x9 (ix1 q) := by
  rw [val_main_v55_apply, val_main_v54_apply]
  exact congrArg x9 (funext fun a => Fin.ext (by match a with | ⟨0, _⟩ => rfl))

theorem zero3 (p : Fin 20000) (q : Fin 2) : val_main_call2_v0 (F := Ideal) (ix2 p q) = 0 := by
  rw [val_main_call2_v0_apply, val_main_call2_cst_apply]
  exact Ideal.ofBits_zero_f32

theorem layer3_eq : val_main_v60 (F := Ideal) x0 x1 x2 x3 x4 x5 x6 x7 x8 x9 x10 = out3 x0 x1 x2 x3 x4 x5 x6 x7 x8 x9 x10 := by
  funext i
  obtain ⟨p, q, rfl⟩ : ∃ (p : Fin 20000) (q : Fin 2), i = ix2 p q := ⟨i 0, i 1, eq_ix2 i⟩
  unfold val_main_v60 val_main_v59 val_main_v56 val_main_v53 val_main_v58 out3
  rw [agg3_eq, layer2_eq]
  exact host_entry dot_S20000x100_S100x2_S20000x2_1_0_0_1_n_n rfl none
    (agg100 (out2 x0 x1 x2 x3 x4 x5 x6 x7) (srcRow x1) (dstRow x1)) (out2 x0 x1 x2 x3 x4 x5 x6 x7)
    (val_main_v52 (F := Ideal) x8) (val_main_v57 (F := Ideal) x10) (val_main_v55 (F := Ideal) x9) (val_main_call2_v0 (F := Ideal))
    (fun q => x9 (ix1 q)) p q (bias3 x9 p q) (zero3 p q)

end

end Cert.ReferenceIdeal.RefValue

end
-- ==== Proof.Bridge.lean ====
/-
  The idealized kernel and the idealized reference compute one function of the arguments.

  Both sides are three layers chained, each layer `layerOf` of the aggregated and the current features, the transposed
  weights and the bias. The two programs print the same gather, scatter-add and index arithmetic, over records and
  shape names of their own that hold the same data: so the two aggregations are one function, and layer by layer the
  two results are equal.
-/
import proofs.«162557_j84859963834407_1_alg».proof.Proof.KernelValue
import proofs.«162557_j84859963834407_1_alg».proof.Proof.RefValue

set_option maxRecDepth 16384

noncomputable section

namespace Cert.Bridge

open Idealize.ShloMosaic Idealize.ShloMosaic.TcCoe Idealize.SL.Sem
open Cert.KernelIdeal Cert.KernelIdeal.Host

variable (m : (ℓ : Loc nD τ sig) → Buf (Elt Ideal) ℓ)

/-- The features after the first layer agree. -/
theorem out1_eq (c : Dev nD) : Cert.KernelIdeal.Value.out1 m c
    = Cert.ReferenceIdeal.RefValue.out1 (x0 m c) (ed m c) (w2 m c) (b3 m c) (w4 m c) := rfl

/-- The features after the second layer agree. -/
theorem out2_eq (c : Dev nD) : Cert.KernelIdeal.Value.out2 m c
    = Cert.ReferenceIdeal.RefValue.out2 (x0 m c) (ed m c) (w2 m c) (b3 m c) (w4 m c) (w5 m c) (b6 m c) (w7 m c) := by
  unfold Cert.KernelIdeal.Value.out2 Cert.ReferenceIdeal.RefValue.out2
  rw [out1_eq]
  rfl

/-- The results agree. -/
theorem out3_eq (c : Dev nD) : Cert.KernelIdeal.Value.out3 m c
    = Cert.ReferenceIdeal.RefValue.out3 (x0 m c) (ed m c) (w2 m c) (b3 m c) (w4 m c) (w5 m c) (b6 m c) (w7 m c)
        (w8 m c) (b9 m c) (w10 m c) := by
  unfold Cert.KernelIdeal.Value.out3 Cert.ReferenceIdeal.RefValue.out3
  rw [out2_eq]
  rfl

end Cert.Bridge

end
-- ==== Proof.lean ====
/-
  The certificate of a three-layer graph convolution: a Pallas kernel for the dense part of each layer against a plain
  host reference.

  Each layer aggregates every node's neighbours' features (a gather along the edge list's source row and a scatter-add at
  its destination row, on the host in both programs), multiplies the aggregated and the node's own features by two
  weight matrices, adds a bias and takes the maximum with zero. The kernel does the dense part on blocks of 2560 rows of
  arrays padded to 20480 rows, with operands narrowed to a shorter float format, and adds the two products before the
  bias; the reference adds the bias between the two products. On the extended reals narrowing is the identity and
  addition is commutative and associative, so entry by entry both are
      max ((∑ k, A (p, k) * Wr (k, q)) + (∑ k, H (p, k) * Wo (k, q)) + b q, 0),
  the padded rows never reach a kept row, and the two programs' results are equal with no finiteness assumption.
  The frames are the generated ones (the reference's is its run with the result dropped); the idealization ledger is
  empty.
-/
import proofs.«162557_j84859963834407_1_alg».proof.Defs
import proofs.«162557_j84859963834407_1_alg».proof.Proof.Gen.Kernel
import proofs.«162557_j84859963834407_1_alg».proof.Proof.Gen.Kernel.Skeleton
import proofs.«162557_j84859963834407_1_alg».proof.Proof.Gen.Kernel.Launch
import proofs.«162557_j84859963834407_1_alg».proof.Proof.Gen.Kernel.Points
import proofs.«162557_j84859963834407_1_alg».proof.Proof.Gen.Kernel.Frame
import proofs.«162557_j84859963834407_1_alg».proof.Proof.Gen.KernelIdeal
import proofs.«162557_j84859963834407_1_alg».proof.Proof.Gen.KernelIdeal.Skeleton
import proofs.«162557_j84859963834407_1_alg».proof.Proof.Gen.KernelIdeal.Launch
import proofs.«162557_j84859963834407_1_alg».proof.Proof.Gen.KernelIdeal.Points
import proofs.«162557_j84859963834407_1_alg».proof.Proof.Gen.KernelIdeal.Frame
import proofs.«162557_j84859963834407_1_alg».proof.Proof.Gen.ReferenceIdeal
import proofs.«162557_j84859963834407_1_alg».proof.Proof.Gen.ReferenceIdeal.Run
import proofs.«162557_j84859963834407_1_alg».proof.Proof.Gen.ReferenceIdeal.Read
import proofs.«162557_j84859963834407_1_alg».proof.Proof.Gen.Pre_finite_inputs
import proofs.«162557_j84859963834407_1_alg».proof.Proof.KernelRun
import proofs.«162557_j84859963834407_1_alg».proof.Proof.Bridge
import Idealize.ShloMosaic.Adequacy
import Idealize.ShloMosaic.Init

noncomputable section

namespace Cert.Proof

open Idealize.ShloMosaic Idealize.SL.Sem

/-- The word-level kernel terminates, faults nowhere and leaves its arguments unchanged. -/
theorem frame_k : @Cert.frame_Kernel Cert.Kernel.Gen.facts Cert.Pre_finite_inputs.Gen.facts :=
  fun m ρ _ => Cert.Kernel.Gen.frame m ρ

/-- So does the idealized kernel. -/
theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the arguments both idealized programs end, with the features after the third layer in
    their result buffers: one function of the arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Value.out3 m c, ?_, ?_⟩
  · exact (θ_run Cert.KernelIdeal.defs _ _).mono
      (fun r h c => ⟨(h c).1.trans (Cert.KernelIdeal.Value.result_value m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v60_eq, Cert.ReferenceIdeal.RefValue.layer3_eq, h0, h1, h2, h3, h4, h5, h6, h7, h8,
      h9, h10]
    exact (Cert.Bridge.out3_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
